-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S2048x256 .f32 .bf16
  ∧ IdealRules.truncf_extf.Statement Cert.KernelIdeal.S256x128 .f32 .bf16
  ∧ IdealRules.truncf_extf.Statement Cert.KernelIdeal.S1024x2048 .f32 .bf16
  ∧ IdealRules.truncf_extf.Statement Cert.KernelIdeal.S2048x128 .f32 .bf16
  ∧ IdealRules.truncf_extf.Statement Cert.KernelIdeal.S2048x128 .f32 .bf16
  ∧ IdealRules.truncf_extf.Statement Cert.KernelIdeal.S128x128 .f32 .bf16
  ∧ IdealRules.truncf_extf.Statement Cert.KernelIdeal.S1024x2048 .f32 .bf16
  ∧ IdealRules.truncf_extf.Statement Cert.KernelIdeal.S2048x128 .f32 .bf16
  ∧ IdealRules.truncf_extf.Statement Cert.KernelIdeal.S1024x128 .f32 .bf16
  ∧ IdealRules.truncf_extf.Statement Cert.KernelIdeal.S128x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x8192 .f32) (main_arg2 : FVec F S256x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S8192x128 : Shape := ⟨2, ![8192, 128]⟩
abbrev S1024x2048 : Shape := ⟨2, ![1024, 2048]⟩
abbrev S2048x256 : Shape := ⟨2, ![2048, 256]⟩
abbrev S1024x128 : Shape := ⟨2, ![1024, 128]⟩
abbrev S2048x128 : Shape := ⟨2, ![2048, 128]⟩
abbrev S8192x1 : Shape := ⟨2, ![8192, 1]⟩
abbrev S1024x1 : Shape := ⟨2, ![1024, 1]⟩

abbrev nBuf : Space → Nat
  | .hbm => 13
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x128, .f32⟩
  | .hbm, ⟨9, _⟩ => ⟨S1x128, .f32⟩
  | .hbm, ⟨10, _⟩ => ⟨S1x1, .f32⟩
  | .hbm, ⟨11, _⟩ => ⟨S8192x128, .f32⟩
  | .hbm, ⟨12, _⟩ => ⟨S8192x1, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S256x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .f32⟩
  | .local _ .vmem, ⟨9, _⟩ => ⟨S1024x2048, .f32⟩
  | .local _ .vmem, ⟨10, _⟩ => ⟨S2048x128, .f32⟩
  | .local _ .vmem, ⟨11, _⟩ => ⟨S2048x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_15 : BitVec 32 := 0#32
  let v40 : BitVec 1 := Scalar.cmpi .ne v39 c0_i32_15
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S128_S1x128 : S128.ShapeCasts S1x128
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S2048x256_S256x128_S2048x128_1_0_0_1_n_n_wf : DotDims.WF S2048x256 S256x128 S2048x128 [1] [0] [0] [1] [] []
  dot_S1024x2048_S2048x128_S1024x128_1_0_0_1_n_n_wf : DotDims.WF S1024x2048 S2048x128 S1024x128 [1] [0] [0] [1] [] []
  dot_S2048x128_S128x128_S2048x128_1_0_0_1_n_n_wf : DotDims.WF S2048x128 S128x128 S2048x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S8192x128 : Shape := ⟨2, ![8192, 128]⟩
abbrev S1x128 : Shape := ⟨2, ![1, 128]⟩
abbrev S_ : Shape := ⟨0, ![]⟩
abbrev S8192x1 : Shape := ⟨2, ![8192, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S8192x128, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S8192x1, .f32⟩
  | .hbm, ⟨25, _⟩ => ⟨S1x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.K.R0Base.lean ====
import proofs.«161297_j25486335935216_2_alg».proof.Proof.Gen.Kernel.Launch
import proofs.«161297_j25486335935216_2_alg».proof.Proof.Gen.Kernel.Skeleton
import proofs.«161297_j25486335935216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-! ## The windows' blocks of region 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reduction coordinate is 0: the accumulator is cleared. -/
abbrev cond0_0 (i : grid0.Coords) : Prop := (Scalar.cmpi .ne (Scalar.extui (Scalar.cmpi .eq (BitVec.ofNat 32 (i 1).val) 0#32)) 0#32) = 1#1
/-- It holds at the points t ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The reduction coordinate is 3: the bias is added and the result clamped at 0. -/
abbrev cond0_1 (i : grid0.Coords) : Prop := (Scalar.cmpi .ne (Scalar.extui (Scalar.cmpi .eq (BitVec.ofNat 32 (i 1).val) 3#32)) 0#32) = 1#1
/-- It holds at the points t ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## The staging memrefs -/

/-- One staging buffer of output window 4, through which its contents are stated (the choice does not matter). -/
abbrev VO0_4 : View sig .tc .vmem S1024x128 .f32 := (Memref.whole cc0_stg4_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)

end Cert.Kernel.Fr

end
-- ==== Proof.K.R0RunA.lean ====
import proofs.«161297_j25486335935216_2_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
-- (the run's proof term is large: the definition's epilogue walks it past the default budget)
set_option maxHeartbeats 1000000 in
/-- What the body's stores leave in the output's staging memref, as pieces (last first), when the reduction coordinate is 0 (the accumulator is cleared, then the product added), with the
    proof that on whole staging memrefs — the inputs' at their contents, the output's at anything — the body runs
    to the continuation holding the inputs' as they were and the output's buffer with its pieces written. -/
noncomputable def kernelRun0_A (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__layer1_kernel i arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.K.R0RunB.lean ====
import proofs.«161297_j25486335935216_2_alg».proof.Proof.K.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
-- (the run's proof term is large: the definition's epilogue walks it past the default budget)
set_option maxHeartbeats 1000000 in
/-- What the body's stores leave in the output's staging memref, as pieces (last first), when the reduction coordinate is 1 or 2 (the product is added to the running contents), with the
    proof that on whole staging memrefs — the inputs' at their contents, the output's at its running contents — the body runs
    to the continuation holding the inputs' as they were and the output's buffer with its pieces written. -/
noncomputable def kernelRun0_B (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__layer1_kernel i arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.K.R0RunC.lean ====
import proofs.«161297_j25486335935216_2_alg».proof.Proof.K.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
-- (the run's proof term is large: the definition's epilogue walks it past the default budget)
set_option maxHeartbeats 1000000 in
/-- What the body's stores leave in the output's staging memref, as pieces (last first), when the reduction coordinate is 3 (the product is added, then the bias, and the result clamped at 0), with the
    proof that on whole staging memrefs — the inputs' at their contents, the output's at its running contents — the body runs
    to the continuation holding the inputs' as they were and the output's buffer with its pieces written. -/
noncomputable def kernelRun0_C (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__layer1_kernel i arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.K.R0Frame.lean ====
import proofs.«161297_j25486335935216_2_alg».proof.Proof.K.R0RunC
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-- The pieces found when the reduction coordinate is 0 (the accumulator is cleared, then the product added) tile the output's block, so they cover it. -/
theorem cover0_A_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) (y : S1024x128.Idx) :
    ∃ pc ∈ (kernelRun0_A c i arg2 harg2 arg3 harg3 arg4 harg4 arg5 harg5 arg6 harg6 hc0 hc1 x0 x1 x2 x3).1, y ∈ pc.1.set :=
  View.cover_of_tiledL (kernelRun0_A c i arg2 harg2 arg3 harg3 arg4 harg4 arg5 harg5 arg6 harg6 hc0 hc1 x0 x1 x2 x3).1 S1024x128.size (by sl_kernel_rfl) y

/-- What the body leaves in the output's staging buffer when the reduction coordinate is 0 (the accumulator is cleared, then the product added): its pieces read back over junk. -/
def out0_A_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) : Vec F S1024x128 .f32 :=
  VO0_4.read (Elt F) (VO0_4.writes (Elt F) VO0_4.junk (kernelRun0_A c i arg2 harg2 arg3 harg3 arg4 harg4 arg5 harg5 arg6 harg6 hc0 hc1 x0 x1 x2 x3).1)

/-- The pieces found when the reduction coordinate is 1 or 2 (the product is added to the running contents) tile the output's block, so they cover it. -/
theorem cover0_B_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) (y : S1024x128.Idx) :
    ∃ pc ∈ (kernelRun0_B c i arg2 harg2 arg3 harg3 arg4 harg4 arg5 harg5 arg6 harg6 hc0 hc1 x0 x1 x2 x3 xo4).1, y ∈ pc.1.set :=
  View.cover_of_tiledL (kernelRun0_B c i arg2 harg2 arg3 harg3 arg4 harg4 arg5 harg5 arg6 harg6 hc0 hc1 x0 x1 x2 x3 xo4).1 S1024x128.size (by sl_kernel_rfl) y

/-- What the body leaves in the output's staging buffer when the reduction coordinate is 1 or 2 (the product is added to the running contents): its pieces read back over junk. -/
def out0_B_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) : Vec F S1024x128 .f32 :=
  VO0_4.read (Elt F) (VO0_4.writes (Elt F) VO0_4.junk (kernelRun0_B c i arg2 harg2 arg3 harg3 arg4 harg4 arg5 harg5 arg6 harg6 hc0 hc1 x0 x1 x2 x3 xo4).1)

/-- The pieces found when the reduction coordinate is 3 (the product is added, then the bias, and the result clamped at 0) tile the output's block, so they cover it. -/
theorem cover0_C_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) (y : S1024x128.Idx) :
    ∃ pc ∈ (kernelRun0_C c i arg2 harg2 arg3 harg3 arg4 harg4 arg5 harg5 arg6 harg6 hc0 hc1 x0 x1 x2 x3 xo4).1, y ∈ pc.1.set :=
  View.cover_of_tiledL (kernelRun0_C c i arg2 harg2 arg3 harg3 arg4 harg4 arg5 harg5 arg6 harg6 hc0 hc1 x0 x1 x2 x3 xo4).1 S1024x128.size (by sl_kernel_rfl) y

/-- What the body leaves in the output's staging buffer when the reduction coordinate is 3 (the product is added, then the bias, and the result clamped at 0): its pieces read back over junk. -/
def out0_C_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) : Vec F S1024x128 .f32 :=
  VO0_4.read (Elt F) (VO0_4.writes (Elt F) VO0_4.junk (kernelRun0_C c i arg2 harg2 arg3 harg3 arg4 harg4 arg5 harg5 arg6 harg6 hc0 hc1 x0 x1 x2 x3 xo4).1)

/-! ## What the output holds after each point -/

/-- The accumulation. What the output's staging buffer holds after the body at position `n`: the case the closed
    forms select at `n`, run at the point's memrefs and input blocks; where the reduction coordinate is not 0 the
    output enters at what this leaves at `n - 1` (its buffer is not written back between). -/
def outsAt0 (c : Dev nD) : (n : ℕ) → n < cfg0.N → Vec F S1024x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => absurd ((Nat.zero_mod 4).symm.trans ((hcond0_1 ⟨0, hn⟩).mp h)) (by decide)) (iblk0 V c 0 ⟨0, hn⟩) (iblk0 V c 1 ⟨0, hn⟩) (iblk0 V c 2 ⟨0, hn⟩) (iblk0 V c 3 ⟨0, hn⟩)
  | n + 1, hn =>
    if h0 : (n + 1) % 4 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => by have h3 : (n + 1) % 4 = 3 := (hcond0_1 ⟨n + 1, hn⟩).mp h; omega) (iblk0 V c 0 ⟨n + 1, hn⟩) (iblk0 V c 1 ⟨n + 1, hn⟩) (iblk0 V c 2 ⟨n + 1, hn⟩) (iblk0 V c 3 ⟨n + 1, hn⟩)
    else if h1 : (n + 1) % 4 = 3 then
      out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- `outsAt0` at a point whose reduction coordinate is 0. -/
theorem outsAt0_A (c : Dev nD) (t : Fin cfg0.N) (h0 : t.val % 4 = 0) (h1 : ¬t.val % 4 = 3) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact (dif_pos h0).trans rfl

/-- `outsAt0` at a point whose reduction coordinate is 1 or 2: over what the point before left. -/
theorem outsAt0_B (c : Dev nD) (t : Fin cfg0.N) (h0 : ¬t.val % 4 = 0) (h1 : ¬t.val % 4 = 3) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose reduction coordinate is 3: over what the point before left. -/
theorem outsAt0_C (c : Dev nD) (t : Fin cfg0.N) (h0 : ¬t.val % 4 = 0) (h1 : t.val % 4 = 3) :
    outsAt0 V c t.val t.isLt = out0_C_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them; after the body at point `t` each
    input's buffer at its block and the output's at `outsAt0`; the invariant the scoped rest and the generator
    register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point whose reduction coordinate is not 0 the output's current staging buffer holds what the body left at the
    point before: the point is not the first, the buffer was not written back between (write-backs follow the points
    ≡ 3 mod 4 only), the window is live and uncut. -/
theorem before0_4_kept (c : Dev nD) (t : Fin cfg0.N) (h0 : ¬t.val % 4 = 0) (d) :
    (dat0 V c).before 4 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_4_B (c : Dev nD) (t : Fin cfg0.N) (h0 : ¬t.val % 4 = 0) (h1 : ¬t.val % 4 = 3) (d) :
    (dat0 V c).before 4 t d = (outsAt0 V c (t.val - 1) (Nat.lt_of_le_of_lt (Nat.sub_le _ _) t.isLt)) := before0_4_kept V c t h0 d
theorem before0_4_C (c : Dev nD) (t : Fin cfg0.N) (h0 : ¬t.val % 4 = 0) (h1 : t.val % 4 = 3) (d) :
    (dat0 V c).before 4 t d = (outsAt0 V c (t.val - 1) (Nat.lt_of_le_of_lt (Nat.sub_le _ _) t.isLt)) := before0_4_kept V c t h0 d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed forms say which case the point is in; where
    the reduction coordinate is not 0 the output's buffer holds what the point before left; so the run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 32 := lt_of_lt_of_eq t.isLt (show cfg0.N = 32 from N_0)
  by_cases h0 : t.val % 4 = 0
  · have h1 : ¬t.val % 4 = 3 := by omega
    rw [outsAt0_A V c t h0 h1]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _)
  · by_cases h1 : t.val % 4 = 3
    · rw [outsAt0_C V c t h0 h1]
      simp only [before0_4_C V c t h0 h1]
      unfold out0_C_4
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) (iblk0 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _)
    · rw [outsAt0_B V c t h0 h1]
      simp only [before0_4_B V c t h0 h1]
      unfold out0_B_4
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) (iblk0 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What each case leaves, as the payloads of its stores -/

/-- The two zero offsets, as the constant function. -/
private theorem hz00 : (![0, 0] : Fin 2 → Nat) = fun _ => 0 := funext fun a => by fin_cases a <;> rfl

set_option maxHeartbeats 400000 in
/-- Reduction coordinate 1 or 2: the one covering store's payload, whose loads read the whole buffers — the running
    contents plus the block's product. -/
theorem out0_B_4_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) :
    out0_B_4 c i arg2 harg2 arg3 harg3 arg4 harg4 arg5 harg5 arg6 harg6 hc0 hc1 x0 x1 x2 x3 xo4 = k0_pay3 x1 x2 xo4 x0 := by
  unfold out0_B_4
  rw [View.read_writes_eq_canon _ _ _ (cover0_B_4 c i arg2 harg2 arg3 harg3 arg4 harg4 arg5 harg5 arg6 harg6 hc0 hc1 x0 x1 x2 x3 xo4)]
  unfold kernelRun0_B
  dsimp only
  rw [View.canon_unit_zero (S := S1024x128) hz00]
  simp only [View.readAt_eq_ld, harg2.read_unread, harg3.read_unread, harg4.read_unread, harg5.read_unread, harg6.read_unread, View.ld_unit_zero (S := S1024x2048) hz00, View.ld_unit_zero (S := S2048x256) hz00, View.ld_unit_zero (S := S256x128) hz00, View.ld_unit_zero (S := S1x128) hz00, View.ld_unit_zero (S := S1024x128) hz00]

set_option maxHeartbeats 400000 in
/-- Reduction coordinate 0: the body stores the zero block, reads it back, and leaves it plus the block's product. -/
theorem out0_A_4_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) :
    out0_A_4 c i arg2 harg2 arg3 harg3 arg4 harg4 arg5 harg5 arg6 harg6 hc0 hc1 x0 x1 x2 x3 = k0_pay3 x1 x2 (k0_pay2 (F := F)) x0 := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  rw [View.canon_cons_unit_zero (S := S1024x128) hz00, View.readCov_unit_zero (S := S1024x128) _ hz00]
  simp only [View.readAt_eq_ld, harg2.read_unread, harg3.read_unread, harg4.read_unread, harg5.read_unread, harg6.read_unread, View.ld_unit_zero (S := S1024x2048) hz00, View.ld_unit_zero (S := S2048x256) hz00, View.ld_unit_zero (S := S256x128) hz00, View.ld_unit_zero (S := S1x128) hz00, View.ld_unit_zero (S := S1024x128) hz00]

set_option maxHeartbeats 400000 in
/-- Reduction coordinate 3: the running contents plus the block's product is stored, read back, and the bias added and
    the result clamped at 0. -/
theorem out0_C_4_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) :
    out0_C_4 c i arg2 harg2 arg3 harg3 arg4 harg4 arg5 harg5 arg6 harg6 hc0 hc1 x0 x1 x2 x3 xo4 = k0_pay1 (k0_pay3 x1 x2 xo4 x0) x3 := by
  unfold out0_C_4
  rw [View.read_writes_eq_canon _ _ _ (cover0_C_4 c i arg2 harg2 arg3 harg3 arg4 harg4 arg5 harg5 arg6 harg6 hc0 hc1 x0 x1 x2 x3 xo4)]
  unfold kernelRun0_C
  dsimp only
  sl_unfold_words
  rw [View.canon_cons_unit_zero (S := S1024x128) hz00, View.readCov_unit_zero (S := S1024x128) _ hz00]
  simp only [View.readAt_eq_ld, harg2.read_unread, harg3.read_unread, harg4.read_unread, harg5.read_unread, harg6.read_unread, View.ld_unit_zero (S := S1024x2048) hz00, View.ld_unit_zero (S := S2048x256) hz00, View.ld_unit_zero (S := S256x128) hz00, View.ld_unit_zero (S := S1x128) hz00, View.ld_unit_zero (S := S1024x128) hz00]

end Cert.Kernel.Fr

end
-- ==== Proof.K.R1Base.lean ====
import proofs.«161297_j25486335935216_2_alg».proof.Proof.Gen.Kernel.Launch
import proofs.«161297_j25486335935216_2_alg».proof.Proof.Gen.Kernel.Skeleton
import proofs.«161297_j25486335935216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1 (the second layer with its logistic head) at the entry contents `V`: what its runs share -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the
    block index has not moved. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the
    block index has not moved. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: unfetched, the
    block index has not moved. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the reduction coordinate -/

/-- The reduction block is the first one (the accumulator is zeroed there). -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The reduction block is the last one (the head is applied and the output stored there). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- In case A (first reduction block) the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- In case B (a middle reduction block) the output window is idle and not written back. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- In case C (last reduction block) the output window is live: the body stores into it. -/
theorem liveAt1_6_C : ∀ t : Fin cfg1.N, ¬cond1_0 (grid1.coords t) → cond1_1 (grid1.coords t) → cfg1.idle 6 (grid1.coords t) = false := by decide +kernel

/-! ## The staging memrefs and the scratch -/

/-- One staging buffer of the output window, through which its contents are stated. -/
abbrev VO1_6 : View sig .tc .vmem S1024x1 .f32 := (Memref.whole cc1_stg6_0 : Memref sig .tc .vmem S1024x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The scratch operand: the accumulator over the reduction blocks, a whole scoped buffer of the kernel's own. -/
abbrev scM1_0 : Memref sig .tc .vmem S1024x128 .f32 := Memref.whole cc1_scratch0
/-- The accumulator as a view: what it holds is stated through it. -/
abbrev VS1_0 : View sig .tc .vmem S1024x128 .f32 := scM1_0.view

/-- The class invariant of region 1, conjunct by conjunct: the other region's staging buffers at some contents, the
    accumulator owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Fr

end
-- ==== Proof.K.R1RunA.lean ====
import proofs.«161297_j25486335935216_2_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the accumulator, as pieces (last first), in
    case A (first reduction block: the accumulator, entered at anything, is zeroed and then accumulated into; the output is left untouched), with the proof that on
    whole memrefs — the inputs at their contents — the body runs to the continuation holding the inputs as they were
    and each stored buffer with its pieces written. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) :
    Σ' (L6 : List (View.Piece (Elt F) S1024x1 .f32)), { LS0 : List (View.Piece (Elt F) S1024x128 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__layer2_head_kernel i arg2 harg2 arg3 harg3 arg4 harg4 arg5 harg5 arg6 harg6 arg7 harg7 arg8 harg8 arg9 harg9) K } := by
  refine ⟨[], ?_, fun xi6 E K => ?run⟩
  case run =>
    simp only [cc1__layer2_head_kernel_eq_skeleton]; unfold cc1__layer2_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.K.R1RunB.lean ====
import proofs.«161297_j25486335935216_2_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the accumulator, as pieces (last first), in
    case B (a middle reduction block: the accumulator, entered at what the point before left, is accumulated into; the output is left untouched), with the proof that on
    whole memrefs — the inputs at their contents — the body runs to the continuation holding the inputs as they were
    and each stored buffer with its pieces written. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) :
    Σ' (L6 : List (View.Piece (Elt F) S1024x1 .f32)), { LS0 : List (View.Piece (Elt F) S1024x128 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__layer2_head_kernel i arg2 harg2 arg3 harg3 arg4 harg4 arg5 harg5 arg6 harg6 arg7 harg7 arg8 harg8 arg9 harg9) K } := by
  refine ⟨[], ?_, fun xi6 E K => ?run⟩
  case run =>
    simp only [cc1__layer2_head_kernel_eq_skeleton]; unfold cc1__layer2_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.K.R1RunC.lean ====
import proofs.«161297_j25486335935216_2_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the accumulator, as pieces (last first), in
    case C (last reduction block: the accumulator is accumulated into, and the head of it is stored into the output), with the proof that on
    whole memrefs — the inputs at their contents — the body runs to the continuation holding the inputs as they were
    and each stored buffer with its pieces written. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) :
    Σ' (L6 : List (View.Piece (Elt F) S1024x1 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__layer2_head_kernel i arg2 harg2 arg3 harg3 arg4 harg4 arg5 harg5 arg6 harg6 arg7 harg7 arg8 harg8 arg9 harg9) K } := by
  refine ⟨?_, ?_, fun E K => ?run⟩
  case run =>
    simp only [cc1__layer2_head_kernel_eq_skeleton]; unfold cc1__layer2_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Fr

end
-- ==== Proof.K.R1Frame.lean ====
import proofs.«161297_j25486335935216_2_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: what each case leaves, the accumulation point by point, the proof data and the body obligation -/

/-- What case A leaves in the output's staging buffer: its pieces read back over junk (none: a placeholder nothing consults, the window being idle and not written back at the case's points). -/
def out1_A_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for the accumulator cover it. -/
theorem scover1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x128.size (by sl_kernel_rfl) y

/-- What case A leaves in the accumulator: its pieces read back over junk. -/
def sout1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- What case B leaves in the output's staging buffer: its pieces read back over junk (none: a placeholder nothing consults, the window being idle and not written back at the case's points). -/
def out1_B_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's pieces for the accumulator cover it. -/
theorem scover1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case B leaves in the accumulator: its pieces read back over junk. -/
def sout1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- Case C's pieces for the output tile its block, so they cover it. -/
theorem cover1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x1.size (by sl_kernel_rfl) y

/-- What case C leaves in the output's staging buffer: its pieces read back over junk. -/
def out1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's pieces for the accumulator cover it. -/
theorem scover1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back over junk. -/
def sout1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- THE ACCUMULATION. What the output's staging buffer and the accumulator hold after the body at position `n`: the
    case the closed forms select at `n`, run at the point's memrefs and input blocks, the accumulator entering cases B
    and C at what this leaves at `n - 1`. -/
def outsAt1 (c : Dev nD) : (n : ℕ) → n < cfg1.N → Vec F S1024x1 .f32 × Vec F S1024x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left in the accumulator. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulator. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the other region's staging buffers as they are, the accumulator at what the point before left in it,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in; the
    invariant hands the body the accumulator at what the point before left (at anything at the first point) and takes it
    back at this point's contents; an output the case does not store into is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR0 HR1 HR2 HR3 HR4 HR5 HR6 HR7 HS0 Hg]
        · isplitl [HR0 HR1 HR2 HR3 HR4 HR5 HR6 HR7 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR0 HR1 HR2 HR3 HR4 HR5 HR6 HR7 HS0 Hg]
        · isplitl [HR0 HR1 HR2 HR3 HR4 HR5 HR6 HR7 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      rw [PhiS1_castSucc V c t, PhiS1_pos V c _ _ hz]
      iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0⟩, Hg⟩
  isplitl [HR0 HR1 HR2 HR3 HR4 HR5 HR6 HR7 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Fr

end
-- ==== Proof.K.Run.lean ====
import proofs.«161297_j25486335935216_2_alg».proof.Proof.Gen.Kernel.Launch
import proofs.«161297_j25486335935216_2_alg».proof.Proof.Gen.Kernel.Skeleton
import proofs.«161297_j25486335935216_2_alg».proof.Proof.Gen.Kernel.Points
import proofs.«161297_j25486335935216_2_alg».proof.Proof.Gen.Kernel.Regions
import proofs.«161297_j25486335935216_2_alg».proof.Proof.K.R0Frame
import proofs.«161297_j25486335935216_2_alg».proof.Proof.K.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: @main's three segments (the reshapes, layer 1, layer 2 with the head) from the launch to the return

## The buffer contents at each segment boundary: a fold through @main -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the three reshapes of the bias vectors (layer 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1: its arrays at what the pipeline leaves (the inputs as entered, the hidden layer's write-backs
    folded), every other buffer as entered (layer 2's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After layer 2 and the head: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the reshapes leave: the arguments as launched -/

theorem W1_of (c : Dev nD) (r : Ref sig .tc) (h : r ∉ hostOps0_W) :
    W1 m ρ c (Proc.devRef .tc r) = m ((c : Thread nD τ).loc r) :=
  Gen.V1_of m c r h

/-! ### The arguments end as launched: no reshape and no layer writes one, so the fold at an argument's buffer walks
    back to the launch memory; the result array ends at what layer 2's write-backs leave -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_of m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_ne m ρ c main_arg4 (by decide)
    _ = m ((c : Thread nD τ).loc main_arg4) := W1_of m ρ c main_arg4 (by decide)
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of m ρ c main_arg5 (by decide)
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 4).trans (((dat1 (V2 m ρ) c).arrAt_in 4 rfl _).trans (A_eq1 (V2 m ρ) c 4))
    _ = W1 m ρ c (Proc.devRef .tc main_arg6) := W2_of_ne m ρ c main_arg6 (by decide)
    _ = m ((c : Thread nD τ).loc main_arg6) := W1_of m ρ c main_arg6 (by decide)
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = m ((c : Thread nD τ).loc main_arg7) := W1_of m ρ c main_arg7 (by decide)

theorem W3_main_v4 (c : Dev nD) : W3 m ρ c (Proc.devRef .tc main_v4) = (dat1 (V2 m ρ) c).arrAt 6 cfg1.N :=
  W3_arr m ρ c 6

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A line of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the reshapes from the launch contents, then a region per layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-- The run with the result named: the result array ends at what layer 2's write-backs leave, every argument array
    as launched. -/
theorem run_named : θ_run defs (onTc (τ := τ) (main (F := F))) ⟨m, fun _ => 0, ρ⟩ (fun r => ∀ c : Dev nD,
      r.2.mem ((c.tc : Thread nD τ).loc main_v4) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs (onTc (τ := τ) (main (F := F))) ⟨m, fun _ => 0, ρ⟩).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-! ## The contents the two layers are entered from, array by array -/

/-- Layer 2 reads the hidden layer as layer 1's write-backs leave it. -/
theorem V2_main_v3 (c : Dev nD) : V2 m ρ c main_v3 = (dat0 (V1 m ρ) c).arrAt 4 cfg0.N := W2_arr m ρ c 4
/-- Layer 1 leaves the adjacency matrix, the second layer's weights and the head's weights as launched. -/
theorem V2_main_arg1 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (W1_of m ρ c main_arg1 (by decide))
theorem V2_main_arg4 (c : Dev nD) : V2 m ρ c main_arg4 = m ((c : Thread nD τ).loc main_arg4) :=
  (W2_of_ne m ρ c main_arg4 (by decide)).trans (W1_of m ρ c main_arg4 (by decide))
theorem V2_main_arg6 (c : Dev nD) : V2 m ρ c main_arg6 = m ((c : Thread nD τ).loc main_arg6) :=
  (W2_of_ne m ρ c main_arg6 (by decide)).trans (W1_of m ρ c main_arg6 (by decide))
/-- and the reshaped biases of layer 2 and of the head as the reshapes left them. -/
theorem V2_main_v1 (c : Dev nD) : V2 m ρ c main_v1 = V1 m ρ c main_v1 := W2_of_ne m ρ c main_v1 (by decide)
theorem V2_main_v2 (c : Dev nD) : V2 m ρ c main_v2 = V1 m ρ c main_v2 := W2_of_ne m ρ c main_v2 (by decide)
/-- The reshapes leave the features, the adjacency matrix and the first layer's weights as launched. -/
theorem V1_main_arg0 (c : Dev nD) : V1 m ρ c main_arg0 = m ((c : Thread nD τ).loc main_arg0) := W1_of m ρ c main_arg0 (by decide)
theorem V1_main_arg1 (c : Dev nD) : V1 m ρ c main_arg1 = m ((c : Thread nD τ).loc main_arg1) := W1_of m ρ c main_arg1 (by decide)
theorem V1_main_arg2 (c : Dev nD) : V1 m ρ c main_arg2 = m ((c : Thread nD τ).loc main_arg2) := W1_of m ρ c main_arg2 (by decide)
/-- Each reshaped bias is the launched bias vector read as one row. -/
theorem V1_main_v0 (c : Dev nD) : (V1 m ρ c main_v0 : S1x128.Idx → Elt F .f32)
    = shapeCast S1x128 (m ((c : Thread nD τ).loc main_arg3) : S128.Idx → Elt F .f32) Facts₀.shapeCasts_S128_S1x128 := by
  show StableHlo.after hostOps0 _ (Proc.devRef .tc main_v0) = _
  after_results; rfl
theorem V1_main_v1 (c : Dev nD) : (V1 m ρ c main_v1 : S1x128.Idx → Elt F .f32)
    = shapeCast S1x128 (m ((c : Thread nD τ).loc main_arg5) : S128.Idx → Elt F .f32) Facts₀.shapeCasts_S128_S1x128 := by
  show StableHlo.after hostOps0 _ (Proc.devRef .tc main_v1) = _
  after_results; rfl
theorem V1_main_v2 (c : Dev nD) : (V1 m ρ c main_v2 : S1x1.Idx → Elt F .f32)
    = shapeCast S1x1 (m ((c : Thread nD τ).loc main_arg7) : S1.Idx → Elt F .f32) Facts₀.shapeCasts_S1_S1x1 := by
  show StableHlo.after hostOps0 _ (Proc.devRef .tc main_v2) = _
  after_results; rfl

end Cert.Kernel.Fr

end
-- ==== Proof.KI.R0Base.lean ====
import proofs.«161297_j25486335935216_2_alg».proof.Proof.Gen.KernelIdeal.Launch
import proofs.«161297_j25486335935216_2_alg».proof.Proof.Gen.KernelIdeal.Skeleton
import proofs.«161297_j25486335935216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-! ## The windows' blocks of region 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reduction coordinate is 0: the accumulator is cleared. -/
abbrev cond0_0 (i : grid0.Coords) : Prop := (Scalar.cmpi .ne (Scalar.extui (Scalar.cmpi .eq (BitVec.ofNat 32 (i 1).val) 0#32)) 0#32) = 1#1
/-- It holds at the points t ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The reduction coordinate is 3: the bias is added and the result clamped at 0. -/
abbrev cond0_1 (i : grid0.Coords) : Prop := (Scalar.cmpi .ne (Scalar.extui (Scalar.cmpi .eq (BitVec.ofNat 32 (i 1).val) 3#32)) 0#32) = 1#1
/-- It holds at the points t ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## The staging memrefs -/

/-- One staging buffer of output window 4, through which its contents are stated (the choice does not matter). -/
abbrev VO0_4 : View sig .tc .vmem S1024x128 .f32 := (Memref.whole cc0_stg4_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KI.R0RunA.lean ====
import proofs.«161297_j25486335935216_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
-- (the run's proof term is large: the definition's epilogue walks it past the default budget)
set_option maxHeartbeats 1000000 in
/-- What the body's stores leave in the output's staging memref, as pieces (last first), when the reduction coordinate is 0 (the accumulator is cleared, then the product added), with the
    proof that on whole staging memrefs — the inputs' at their contents, the output's at anything — the body runs
    to the continuation holding the inputs' as they were and the output's buffer with its pieces written. -/
noncomputable def kernelRun0_A (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__layer1_kernel i arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KI.R0RunB.lean ====
import proofs.«161297_j25486335935216_2_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
-- (the run's proof term is large: the definition's epilogue walks it past the default budget)
set_option maxHeartbeats 1000000 in
/-- What the body's stores leave in the output's staging memref, as pieces (last first), when the reduction coordinate is 1 or 2 (the product is added to the running contents), with the
    proof that on whole staging memrefs — the inputs' at their contents, the output's at its running contents — the body runs
    to the continuation holding the inputs' as they were and the output's buffer with its pieces written. -/
noncomputable def kernelRun0_B (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__layer1_kernel i arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KI.R0RunC.lean ====
import proofs.«161297_j25486335935216_2_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
-- (the run's proof term is large: the definition's epilogue walks it past the default budget)
set_option maxHeartbeats 1000000 in
/-- What the body's stores leave in the output's staging memref, as pieces (last first), when the reduction coordinate is 3 (the product is added, then the bias, and the result clamped at 0), with the
    proof that on whole staging memrefs — the inputs' at their contents, the output's at its running contents — the body runs
    to the continuation holding the inputs' as they were and the output's buffer with its pieces written. -/
noncomputable def kernelRun0_C (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) :
    { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__layer1_kernel i arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KI.R0Frame.lean ====
import proofs.«161297_j25486335935216_2_alg».proof.Proof.KI.R0RunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-- The pieces found when the reduction coordinate is 0 (the accumulator is cleared, then the product added) tile the output's block, so they cover it. -/
theorem cover0_A_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) (y : S1024x128.Idx) :
    ∃ pc ∈ (kernelRun0_A c i arg2 harg2 arg3 harg3 arg4 harg4 arg5 harg5 arg6 harg6 hc0 hc1 x0 x1 x2 x3).1, y ∈ pc.1.set :=
  View.cover_of_tiledL (kernelRun0_A c i arg2 harg2 arg3 harg3 arg4 harg4 arg5 harg5 arg6 harg6 hc0 hc1 x0 x1 x2 x3).1 S1024x128.size (by sl_kernel_rfl) y

/-- What the body leaves in the output's staging buffer when the reduction coordinate is 0 (the accumulator is cleared, then the product added): its pieces read back over junk. -/
def out0_A_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) : Vec F S1024x128 .f32 :=
  VO0_4.read (Elt F) (VO0_4.writes (Elt F) VO0_4.junk (kernelRun0_A c i arg2 harg2 arg3 harg3 arg4 harg4 arg5 harg5 arg6 harg6 hc0 hc1 x0 x1 x2 x3).1)

/-- The pieces found when the reduction coordinate is 1 or 2 (the product is added to the running contents) tile the output's block, so they cover it. -/
theorem cover0_B_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) (y : S1024x128.Idx) :
    ∃ pc ∈ (kernelRun0_B c i arg2 harg2 arg3 harg3 arg4 harg4 arg5 harg5 arg6 harg6 hc0 hc1 x0 x1 x2 x3 xo4).1, y ∈ pc.1.set :=
  View.cover_of_tiledL (kernelRun0_B c i arg2 harg2 arg3 harg3 arg4 harg4 arg5 harg5 arg6 harg6 hc0 hc1 x0 x1 x2 x3 xo4).1 S1024x128.size (by sl_kernel_rfl) y

/-- What the body leaves in the output's staging buffer when the reduction coordinate is 1 or 2 (the product is added to the running contents): its pieces read back over junk. -/
def out0_B_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) : Vec F S1024x128 .f32 :=
  VO0_4.read (Elt F) (VO0_4.writes (Elt F) VO0_4.junk (kernelRun0_B c i arg2 harg2 arg3 harg3 arg4 harg4 arg5 harg5 arg6 harg6 hc0 hc1 x0 x1 x2 x3 xo4).1)

/-- The pieces found when the reduction coordinate is 3 (the product is added, then the bias, and the result clamped at 0) tile the output's block, so they cover it. -/
theorem cover0_C_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) (y : S1024x128.Idx) :
    ∃ pc ∈ (kernelRun0_C c i arg2 harg2 arg3 harg3 arg4 harg4 arg5 harg5 arg6 harg6 hc0 hc1 x0 x1 x2 x3 xo4).1, y ∈ pc.1.set :=
  View.cover_of_tiledL (kernelRun0_C c i arg2 harg2 arg3 harg3 arg4 harg4 arg5 harg5 arg6 harg6 hc0 hc1 x0 x1 x2 x3 xo4).1 S1024x128.size (by sl_kernel_rfl) y

/-- What the body leaves in the output's staging buffer when the reduction coordinate is 3 (the product is added, then the bias, and the result clamped at 0): its pieces read back over junk. -/
def out0_C_4 (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) : Vec F S1024x128 .f32 :=
  VO0_4.read (Elt F) (VO0_4.writes (Elt F) VO0_4.junk (kernelRun0_C c i arg2 harg2 arg3 harg3 arg4 harg4 arg5 harg5 arg6 harg6 hc0 hc1 x0 x1 x2 x3 xo4).1)

/-! ## What the output holds after each point -/

/-- The accumulation. What the output's staging buffer holds after the body at position `n`: the case the closed
    forms select at `n`, run at the point's memrefs and input blocks; where the reduction coordinate is not 0 the
    output enters at what this leaves at `n - 1` (its buffer is not written back between). -/
def outsAt0 (c : Dev nD) : (n : ℕ) → n < cfg0.N → Vec F S1024x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => absurd ((Nat.zero_mod 4).symm.trans ((hcond0_1 ⟨0, hn⟩).mp h)) (by decide)) (iblk0 V c 0 ⟨0, hn⟩) (iblk0 V c 1 ⟨0, hn⟩) (iblk0 V c 2 ⟨0, hn⟩) (iblk0 V c 3 ⟨0, hn⟩)
  | n + 1, hn =>
    if h0 : (n + 1) % 4 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => by have h3 : (n + 1) % 4 = 3 := (hcond0_1 ⟨n + 1, hn⟩).mp h; omega) (iblk0 V c 0 ⟨n + 1, hn⟩) (iblk0 V c 1 ⟨n + 1, hn⟩) (iblk0 V c 2 ⟨n + 1, hn⟩) (iblk0 V c 3 ⟨n + 1, hn⟩)
    else if h1 : (n + 1) % 4 = 3 then
      out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- `outsAt0` at a point whose reduction coordinate is 0. -/
theorem outsAt0_A (c : Dev nD) (t : Fin cfg0.N) (h0 : t.val % 4 = 0) (h1 : ¬t.val % 4 = 3) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact (dif_pos h0).trans rfl

/-- `outsAt0` at a point whose reduction coordinate is 1 or 2: over what the point before left. -/
theorem outsAt0_B (c : Dev nD) (t : Fin cfg0.N) (h0 : ¬t.val % 4 = 0) (h1 : ¬t.val % 4 = 3) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose reduction coordinate is 3: over what the point before left. -/
theorem outsAt0_C (c : Dev nD) (t : Fin cfg0.N) (h0 : ¬t.val % 4 = 0) (h1 : t.val % 4 = 3) :
    outsAt0 V c t.val t.isLt = out0_C_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them; after the body at point `t` each
    input's buffer at its block and the output's at `outsAt0`; the invariant the scoped rest and the generator
    register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point whose reduction coordinate is not 0 the output's current staging buffer holds what the body left at the
    point before: the point is not the first, the buffer was not written back between (write-backs follow the points
    ≡ 3 mod 4 only), the window is live and uncut. -/
theorem before0_4_kept (c : Dev nD) (t : Fin cfg0.N) (h0 : ¬t.val % 4 = 0) (d) :
    (dat0 V c).before 4 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_4_B (c : Dev nD) (t : Fin cfg0.N) (h0 : ¬t.val % 4 = 0) (h1 : ¬t.val % 4 = 3) (d) :
    (dat0 V c).before 4 t d = (outsAt0 V c (t.val - 1) (Nat.lt_of_le_of_lt (Nat.sub_le _ _) t.isLt)) := before0_4_kept V c t h0 d
theorem before0_4_C (c : Dev nD) (t : Fin cfg0.N) (h0 : ¬t.val % 4 = 0) (h1 : t.val % 4 = 3) (d) :
    (dat0 V c).before 4 t d = (outsAt0 V c (t.val - 1) (Nat.lt_of_le_of_lt (Nat.sub_le _ _) t.isLt)) := before0_4_kept V c t h0 d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed forms say which case the point is in; where
    the reduction coordinate is not 0 the output's buffer holds what the point before left; so the run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 32 := lt_of_lt_of_eq t.isLt (show cfg0.N = 32 from N_0)
  by_cases h0 : t.val % 4 = 0
  · have h1 : ¬t.val % 4 = 3 := by omega
    rw [outsAt0_A V c t h0 h1]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _)
  · by_cases h1 : t.val % 4 = 3
    · rw [outsAt0_C V c t h0 h1]
      simp only [before0_4_C V c t h0 h1]
      unfold out0_C_4
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) (iblk0 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _)
    · rw [outsAt0_B V c t h0 h1]
      simp only [before0_4_B V c t h0 h1]
      unfold out0_B_4
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) (iblk0 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What each case leaves, as the payloads of its stores -/

/-- The two zero offsets, as the constant function. -/
private theorem hz00 : (![0, 0] : Fin 2 → Nat) = fun _ => 0 := funext fun a => by fin_cases a <;> rfl

set_option maxHeartbeats 400000 in
/-- Reduction coordinate 1 or 2: the one covering store's payload, whose loads read the whole buffers — the running
    contents plus the block's product. -/
theorem out0_B_4_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S2048x256 .f32) (x2 : Vec F S256x128 .f32) (x3 : Vec F S1x128 .f32) (xo4 : Vec F S1024x128 .f32) :
    out0_B_4 c i arg2 harg2 arg3 harg3 arg4 harg4 arg5 harg5 arg6 harg6 hc0 hc1 x0 x1 x2 x3 xo4 = k0_pay3 x1 x2 xo4 x0 := by
  unfold out0_B_4
  rw [View.read_writes_eq_canon _ _ _ (cover0_B_4 c i arg2 harg2 arg3 harg3 arg4 harg4 arg5 harg5 arg6 harg6 hc0 hc1 x0 x1 x2 x3 xo4)]
  unfold kernelRun0_B
  dsimp only
  rw [View.canon_unit_zero (S := S1024x128) hz00]
  simp only [View.readAt_eq_ld, harg2.read_unread, harg3.read_unread, harg4.read_unread, harg5.read_unread, harg6.read_unread, View.ld_unit_zero (S := S1024x2048) hz00, View.ld_unit_zero (S := S2048x256) hz00, View.ld_unit_zero (S := S256x128) hz00, View.ld_unit_zero (S := S1x128) hz00, View.ld_unit_zero (S := S1024x128) hz00]

set_option maxHeartbeats 400000 in
/-- Reduction coordinate 0: the body stores the zero block, reads it back, and leaves it plus the block's product. -/
theorem out0_A_4_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S2048x256 .f32) (x2 : Vec F S256x128 .f32) (x3 : Vec F S1x128 .f32) :
    out0_A_4 c i arg2 harg2 arg3 harg3 arg4 harg4 arg5 harg5 arg6 harg6 hc0 hc1 x0 x1 x2 x3 = k0_pay3 x1 x2 (k0_pay2 (F := F)) x0 := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  rw [View.canon_cons_unit_zero (S := S1024x128) hz00, View.readCov_unit_zero (S := S1024x128) _ hz00]
  simp only [View.readAt_eq_ld, harg2.read_unread, harg3.read_unread, harg4.read_unread, harg5.read_unread, harg6.read_unread, View.ld_unit_zero (S := S1024x2048) hz00, View.ld_unit_zero (S := S2048x256) hz00, View.ld_unit_zero (S := S256x128) hz00, View.ld_unit_zero (S := S1x128) hz00, View.ld_unit_zero (S := S1024x128) hz00]

set_option maxHeartbeats 400000 in
/-- Reduction coordinate 3: the running contents plus the block's product is stored, read back, and the bias added and
    the result clamped at 0. -/
theorem out0_C_4_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S2048x256 .f32) (x2 : Vec F S256x128 .f32) (x3 : Vec F S1x128 .f32) (xo4 : Vec F S1024x128 .f32) :
    out0_C_4 c i arg2 harg2 arg3 harg3 arg4 harg4 arg5 harg5 arg6 harg6 hc0 hc1 x0 x1 x2 x3 xo4 = k0_pay1 (k0_pay3 x1 x2 xo4 x0) x3 := by
  unfold out0_C_4
  rw [View.read_writes_eq_canon _ _ _ (cover0_C_4 c i arg2 harg2 arg3 harg3 arg4 harg4 arg5 harg5 arg6 harg6 hc0 hc1 x0 x1 x2 x3 xo4)]
  unfold kernelRun0_C
  dsimp only
  sl_unfold_words
  rw [View.canon_cons_unit_zero (S := S1024x128) hz00, View.readCov_unit_zero (S := S1024x128) _ hz00]
  simp only [View.readAt_eq_ld, harg2.read_unread, harg3.read_unread, harg4.read_unread, harg5.read_unread, harg6.read_unread, View.ld_unit_zero (S := S1024x2048) hz00, View.ld_unit_zero (S := S2048x256) hz00, View.ld_unit_zero (S := S256x128) hz00, View.ld_unit_zero (S := S1x128) hz00, View.ld_unit_zero (S := S1024x128) hz00]

end Cert.KernelIdeal.Fr

end
-- ==== Proof.KI.R1Base.lean ====
import proofs.«161297_j25486335935216_2_alg».proof.Proof.Gen.KernelIdeal.Launch
import proofs.«161297_j25486335935216_2_alg».proof.Proof.Gen.KernelIdeal.Skeleton
import proofs.«161297_j25486335935216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1 (the second layer with its logistic head) at the entry contents `V`: what its runs share -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the
    block index has not moved. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the
    block index has not moved. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: unfetched, the
    block index has not moved. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the reduction coordinate -/

/-- The reduction block is the first one (the accumulator is zeroed there). -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The reduction block is the last one (the head is applied and the output stored there). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- In case A (first reduction block) the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- In case B (a middle reduction block) the output window is idle and not written back. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- In case C (last reduction block) the output window is live: the body stores into it. -/
theorem liveAt1_6_C : ∀ t : Fin cfg1.N, ¬cond1_0 (grid1.coords t) → cond1_1 (grid1.coords t) → cfg1.idle 6 (grid1.coords t) = false := by decide +kernel

/-! ## The staging memrefs and the scratch -/

/-- One staging buffer of the output window, through which its contents are stated. -/
abbrev VO1_6 : View sig .tc .vmem S1024x1 .f32 := (Memref.whole cc1_stg6_0 : Memref sig .tc .vmem S1024x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The scratch operand: the accumulator over the reduction blocks, a whole scoped buffer of the kernel's own. -/
abbrev scM1_0 : Memref sig .tc .vmem S1024x128 .f32 := Memref.whole cc1_scratch0
/-- The accumulator as a view: what it holds is stated through it. -/
abbrev VS1_0 : View sig .tc .vmem S1024x128 .f32 := scM1_0.view

/-- The class invariant of region 1, conjunct by conjunct: the other region's staging buffers at some contents, the
    accumulator owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.KI.R1RunA.lean ====
import proofs.«161297_j25486335935216_2_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the accumulator, as pieces (last first), in
    case A (first reduction block: the accumulator, entered at anything, is zeroed and then accumulated into; the output is left untouched), with the proof that on
    whole memrefs — the inputs at their contents — the body runs to the continuation holding the inputs as they were
    and each stored buffer with its pieces written. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) :
    Σ' (L6 : List (View.Piece (Elt F) S1024x1 .f32)), { LS0 : List (View.Piece (Elt F) S1024x128 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__layer2_head_kernel i arg2 harg2 arg3 harg3 arg4 harg4 arg5 harg5 arg6 harg6 arg7 harg7 arg8 harg8 arg9 harg9) K } := by
  refine ⟨[], ?_, fun xi6 E K => ?run⟩
  case run =>
    simp only [cc1__layer2_head_kernel_eq_skeleton]; unfold cc1__layer2_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KI.R1RunB.lean ====
import proofs.«161297_j25486335935216_2_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the accumulator, as pieces (last first), in
    case B (a middle reduction block: the accumulator, entered at what the point before left, is accumulated into; the output is left untouched), with the proof that on
    whole memrefs — the inputs at their contents — the body runs to the continuation holding the inputs as they were
    and each stored buffer with its pieces written. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) :
    Σ' (L6 : List (View.Piece (Elt F) S1024x1 .f32)), { LS0 : List (View.Piece (Elt F) S1024x128 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__layer2_head_kernel i arg2 harg2 arg3 harg3 arg4 harg4 arg5 harg5 arg6 harg6 arg7 harg7 arg8 harg8 arg9 harg9) K } := by
  refine ⟨[], ?_, fun xi6 E K => ?run⟩
  case run =>
    simp only [cc1__layer2_head_kernel_eq_skeleton]; unfold cc1__layer2_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KI.R1RunC.lean ====
import proofs.«161297_j25486335935216_2_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the accumulator, as pieces (last first), in
    case C (last reduction block: the accumulator is accumulated into, and the head of it is stored into the output), with the proof that on
    whole memrefs — the inputs at their contents — the body runs to the continuation holding the inputs as they were
    and each stored buffer with its pieces written. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) :
    Σ' (L6 : List (View.Piece (Elt F) S1024x1 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__layer2_head_kernel i arg2 harg2 arg3 harg3 arg4 harg4 arg5 harg5 arg6 harg6 arg7 harg7 arg8 harg8 arg9 harg9) K } := by
  refine ⟨?_, ?_, fun E K => ?run⟩
  case run =>
    simp only [cc1__layer2_head_kernel_eq_skeleton]; unfold cc1__layer2_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Fr

end
-- ==== Proof.KI.R1Frame.lean ====
import proofs.«161297_j25486335935216_2_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: what each case leaves, the accumulation point by point, the proof data and the body obligation -/

/-- What case A leaves in the output's staging buffer: its pieces read back over junk (none: a placeholder nothing consults, the window being idle and not written back at the case's points). -/
def out1_A_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for the accumulator cover it. -/
theorem scover1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x128.size (by sl_kernel_rfl) y

/-- What case A leaves in the accumulator: its pieces read back over junk. -/
def sout1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- What case B leaves in the output's staging buffer: its pieces read back over junk (none: a placeholder nothing consults, the window being idle and not written back at the case's points). -/
def out1_B_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's pieces for the accumulator cover it. -/
theorem scover1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case B leaves in the accumulator: its pieces read back over junk. -/
def sout1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- Case C's pieces for the output tile its block, so they cover it. -/
theorem cover1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x1.size (by sl_kernel_rfl) y

/-- What case C leaves in the output's staging buffer: its pieces read back over junk. -/
def out1_C_6 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's pieces for the accumulator cover it. -/
theorem scover1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back over junk. -/
def sout1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- THE ACCUMULATION. What the output's staging buffer and the accumulator hold after the body at position `n`: the
    case the closed forms select at `n`, run at the point's memrefs and input blocks, the accumulator entering cases B
    and C at what this leaves at `n - 1`. -/
def outsAt1 (c : Dev nD) : (n : ℕ) → n < cfg1.N → Vec F S1024x1 .f32 × Vec F S1024x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left in the accumulator. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulator. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the other region's staging buffers as they are, the accumulator at what the point before left in it,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in; the
    invariant hands the body the accumulator at what the point before left (at anything at the first point) and takes it
    back at this point's contents; an output the case does not store into is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR0 HR1 HR2 HR3 HR4 HR5 HR6 HR7 HS0 Hg]
        · isplitl [HR0 HR1 HR2 HR3 HR4 HR5 HR6 HR7 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR0 HR1 HR2 HR3 HR4 HR5 HR6 HR7 HS0 Hg]
        · isplitl [HR0 HR1 HR2 HR3 HR4 HR5 HR6 HR7 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      rw [PhiS1_castSucc V c t, PhiS1_pos V c _ _ hz]
      iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0⟩, Hg⟩
  isplitl [HR0 HR1 HR2 HR3 HR4 HR5 HR6 HR7 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Fr

end
-- ==== Proof.KI.Run.lean ====
import proofs.«161297_j25486335935216_2_alg».proof.Proof.Gen.KernelIdeal.Launch
import proofs.«161297_j25486335935216_2_alg».proof.Proof.Gen.KernelIdeal.Skeleton
import proofs.«161297_j25486335935216_2_alg».proof.Proof.Gen.KernelIdeal.Points
import proofs.«161297_j25486335935216_2_alg».proof.Proof.Gen.KernelIdeal.Regions
import proofs.«161297_j25486335935216_2_alg».proof.Proof.KI.R0Frame
import proofs.«161297_j25486335935216_2_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: @main's three segments (the reshapes, layer 1, layer 2 with the head) from the launch to the return

## The buffer contents at each segment boundary: a fold through @main -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the three reshapes of the bias vectors (layer 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1: its arrays at what the pipeline leaves (the inputs as entered, the hidden layer's write-backs
    folded), every other buffer as entered (layer 2's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After layer 2 and the head: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the reshapes leave: the arguments as launched -/

theorem W1_of (c : Dev nD) (r : Ref sig .tc) (h : r ∉ hostOps0_W) :
    W1 m ρ c (Proc.devRef .tc r) = m ((c : Thread nD τ).loc r) :=
  Gen.V1_of m c r h

/-! ### The arguments end as launched: no reshape and no layer writes one, so the fold at an argument's buffer walks
    back to the launch memory; the result array ends at what layer 2's write-backs leave -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_of m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_ne m ρ c main_arg4 (by decide)
    _ = m ((c : Thread nD τ).loc main_arg4) := W1_of m ρ c main_arg4 (by decide)
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of m ρ c main_arg5 (by decide)
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 4).trans (((dat1 (V2 m ρ) c).arrAt_in 4 rfl _).trans (A_eq1 (V2 m ρ) c 4))
    _ = W1 m ρ c (Proc.devRef .tc main_arg6) := W2_of_ne m ρ c main_arg6 (by decide)
    _ = m ((c : Thread nD τ).loc main_arg6) := W1_of m ρ c main_arg6 (by decide)
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = m ((c : Thread nD τ).loc main_arg7) := W1_of m ρ c main_arg7 (by decide)

theorem W3_main_v4 (c : Dev nD) : W3 m ρ c (Proc.devRef .tc main_v4) = (dat1 (V2 m ρ) c).arrAt 6 cfg1.N :=
  W3_arr m ρ c 6

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A line of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W3`, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the reshapes from the launch contents, then a region per layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-- The run with the result named: the result array ends at what layer 2's write-backs leave, every argument array
    as launched. -/
theorem run_named : θ_run defs (onTc (τ := τ) (main (F := F))) ⟨m, fun _ => 0, ρ⟩ (fun r => ∀ c : Dev nD,
      r.2.mem ((c.tc : Thread nD τ).loc main_v4) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs (onTc (τ := τ) (main (F := F))) ⟨m, fun _ => 0, ρ⟩).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-! ## The contents the two layers are entered from, array by array -/

/-- Layer 2 reads the hidden layer as layer 1's write-backs leave it. -/
theorem V2_main_v3 (c : Dev nD) : V2 m ρ c main_v3 = (dat0 (V1 m ρ) c).arrAt 4 cfg0.N := W2_arr m ρ c 4
/-- Layer 1 leaves the adjacency matrix, the second layer's weights and the head's weights as launched. -/
theorem V2_main_arg1 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (W1_of m ρ c main_arg1 (by decide))
theorem V2_main_arg4 (c : Dev nD) : V2 m ρ c main_arg4 = m ((c : Thread nD τ).loc main_arg4) :=
  (W2_of_ne m ρ c main_arg4 (by decide)).trans (W1_of m ρ c main_arg4 (by decide))
theorem V2_main_arg6 (c : Dev nD) : V2 m ρ c main_arg6 = m ((c : Thread nD τ).loc main_arg6) :=
  (W2_of_ne m ρ c main_arg6 (by decide)).trans (W1_of m ρ c main_arg6 (by decide))
/-- and the reshaped biases of layer 2 and of the head as the reshapes left them. -/
theorem V2_main_v1 (c : Dev nD) : V2 m ρ c main_v1 = V1 m ρ c main_v1 := W2_of_ne m ρ c main_v1 (by decide)
theorem V2_main_v2 (c : Dev nD) : V2 m ρ c main_v2 = V1 m ρ c main_v2 := W2_of_ne m ρ c main_v2 (by decide)
/-- The reshapes leave the features, the adjacency matrix and the first layer's weights as launched. -/
theorem V1_main_arg0 (c : Dev nD) : V1 m ρ c main_arg0 = m ((c : Thread nD τ).loc main_arg0) := W1_of m ρ c main_arg0 (by decide)
theorem V1_main_arg1 (c : Dev nD) : V1 m ρ c main_arg1 = m ((c : Thread nD τ).loc main_arg1) := W1_of m ρ c main_arg1 (by decide)
theorem V1_main_arg2 (c : Dev nD) : V1 m ρ c main_arg2 = m ((c : Thread nD τ).loc main_arg2) := W1_of m ρ c main_arg2 (by decide)
/-- Each reshaped bias is the launched bias vector read as one row. -/
theorem V1_main_v0 (c : Dev nD) : (V1 m ρ c main_v0 : S1x128.Idx → Elt F .f32)
    = shapeCast S1x128 (m ((c : Thread nD τ).loc main_arg3) : S128.Idx → Elt F .f32) Facts₀.shapeCasts_S128_S1x128 := by
  show StableHlo.after hostOps0 _ (Proc.devRef .tc main_v0) = _
  after_results; rfl
theorem V1_main_v1 (c : Dev nD) : (V1 m ρ c main_v1 : S1x128.Idx → Elt F .f32)
    = shapeCast S1x128 (m ((c : Thread nD τ).loc main_arg5) : S128.Idx → Elt F .f32) Facts₀.shapeCasts_S128_S1x128 := by
  show StableHlo.after hostOps0 _ (Proc.devRef .tc main_v1) = _
  after_results; rfl
theorem V1_main_v2 (c : Dev nD) : (V1 m ρ c main_v2 : S1x1.Idx → Elt F .f32)
    = shapeCast S1x1 (m ((c : Thread nD τ).loc main_arg7) : S1.Idx → Elt F .f32) Facts₀.shapeCasts_S1_S1x1 := by
  show StableHlo.after hostOps0 _ (Proc.devRef .tc main_v2) = _
  after_results; rfl

end Cert.KernelIdeal.Fr

end
-- ==== Proof.Spec.lean ====
/-
  The mathematics both programs compute, over the extended reals, index by index.

  With X : [8192, 256], A : [8192, 8192], W1 : [256, 128], b1 : [128], W2 : [128, 128], b2 : [128],
  Wf : [128, 1], bf : [1]:
    Y1 = X · W1,   H1 = max (A · Y1 + b1) 0,   Y2 = H1 · W2,   H2 = max (A · Y2 + b2) 0,
    OUT = logistic (H2 · Wf + bf),
  each matrix product the plain finite sum over the contracted coordinate, the bias added along the rows,
  the logistic function x ↦ 1 / (1 + e^(-x)) with its limits at the infinities.
-/
import Mathlib
import Idealize.ShloMosaic.PureOps.Ideal
import Idealize.ShloMosaic.Lib.ValueIdx

noncomputable section

namespace Cert.Spec

open Idealize.ShloMosaic Idealize.ShloMosaic.ValueIdx

abbrev T8192x256 : Shape := ⟨2, ![8192, 256]⟩
abbrev T8192x8192 : Shape := ⟨2, ![8192, 8192]⟩
abbrev T256x128 : Shape := ⟨2, ![256, 128]⟩
abbrev T128x128 : Shape := ⟨2, ![128, 128]⟩
abbrev T128x1 : Shape := ⟨2, ![128, 1]⟩
abbrev T8192x128 : Shape := ⟨2, ![8192, 128]⟩
abbrev T8192x1 : Shape := ⟨2, ![8192, 1]⟩
abbrev T128 : Shape := ⟨1, ![128]⟩
abbrev T1 : Shape := ⟨1, ![1]⟩

/-- Every entry of the array is a real number (neither infinity). -/
def IsReal {S : Shape} (x : S.Idx → EReal) : Prop := ∀ i, ∃ r : ℝ, x i = (r : EReal)

/-- A projection of features: row `c` of `x` (with `K` features) against column `j` of the weights `w`. -/
def proj {K : Nat} (x : Fin 8192 → Fin K → EReal) (w : (⟨2, ![K, 128]⟩ : Shape).Idx → EReal) (c : Fin 8192) (j : Fin 128) : EReal :=
  ∑ f : Fin K, x c f * w (ix2 f j)

/-- One graph-convolution layer: aggregate the projected features over all 8192 nodes with the weights of row `r` of
    `A`, add the bias of column `j`, clamp below at zero. -/
def layer {K : Nat} (A : T8192x8192.Idx → EReal) (x : Fin 8192 → Fin K → EReal) (w : (⟨2, ![K, 128]⟩ : Shape).Idx → EReal)
    (b : T128.Idx → EReal) (r : Fin 8192) (j : Fin 128) : EReal :=
  max ((∑ c : Fin 8192, A (ix2 r c) * proj x w c j) + b (ix1 j)) 0

/-- The first layer's activations, from the input features read as a two-argument function. -/
def H1 (X : T8192x256.Idx → EReal) (A : T8192x8192.Idx → EReal) (W1 : T256x128.Idx → EReal) (b1 : T128.Idx → EReal) :
    Fin 8192 → Fin 128 → EReal :=
  layer A (fun c f => X (ix2 c f)) W1 b1

/-- The second layer's activations. -/
def H2 (X : T8192x256.Idx → EReal) (A : T8192x8192.Idx → EReal) (W1 : T256x128.Idx → EReal) (b1 : T128.Idx → EReal)
    (W2 : T128x128.Idx → EReal) (b2 : T128.Idx → EReal) : Fin 8192 → Fin 128 → EReal :=
  layer A (H1 X A W1 b1) W2 b2

/-- The head's pre-activation of node `r`: the second layer's row against the one column of `Wf`, plus the scalar bias. -/
def logit (h : Fin 8192 → Fin 128 → EReal) (Wf : T128x1.Idx → EReal) (bf : T1.Idx → EReal) (r : Fin 8192) : EReal :=
  (∑ j : Fin 128, h r j * Wf (ix2 j 0)) + bf (ix1 0)

/-- The result array, index by index: the logistic function of each node's head pre-activation. -/
def G (X : T8192x256.Idx → EReal) (A : T8192x8192.Idx → EReal) (W1 : T256x128.Idx → EReal) (b1 : T128.Idx → EReal)
    (W2 : T128x128.Idx → EReal) (b2 : T128.Idx → EReal) (Wf : T128x1.Idx → EReal) (bf : T1.Idx → EReal) :
    T8192x1.Idx → EReal :=
  fun i => Ideal.logistic (logit (H2 X A W1 b1 W2 b2) Wf bf (i 0))

end Cert.Spec

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.PayIdeal0.lean ====
/-
  The kernel's payloads read at an index, at the extended reals: the general facts and the first layer's region.

  At the extended reals a narrowing or widening of a float is the identity and a product into the zero accumulator
  is the plain finite sum over the contracted coordinate. Each product of the source is split in three passes: with
  high part x and low part x - x, (high · high + high · low) + low · high. For a REAL x (neither infinity)
  x - x = 0, and a product with a zero factor is zero in the extended reals whatever the other factor, so the two
  low passes vanish and the three passes are the plain product; a finite sum of products of reals is again a real,
  which lets the outer product of the layer collapse the same way.
-/
import proofs.«161297_j25486335935216_2_alg».proof.Proof.Gen.KernelIdeal.Skeleton
import proofs.«161297_j25486335935216_2_alg».proof.Proof.Spec
import proofs.«161297_j25486335935216_2_alg».proof.Proof.LibTileMatmul
import Idealize.ShloMosaic.PureOps.Ideal.Laws
import Idealize.ShloMosaic.Lib.ValueIdx
import Idealize.ShloMosaic.Lib.ValueLayout
import Idealize.ShloMosaic.Lib.Pipeline.Value

set_option synthInstance.maxSize 4096

noncomputable section

open scoped BigOperators

namespace Cert.KernelIdeal.Pay

open Idealize.ShloMosaic Idealize.ShloMosaic.ValueIdx Idealize.SL.Sem
open Cert.KernelIdeal Cert.KernelIdeal.Gen Cert.Spec

/-! ## Real entries are closed under the operations the kernel uses -/

/-- A real minus itself is zero in the extended reals (this fails at the infinities). -/
theorem real_sub_self {x : EReal} (h : ∃ r : ℝ, x = (r : EReal)) : x - x = 0 := by
  obtain ⟨r, rfl⟩ := h
  rw [← EReal.coe_sub, sub_self, EReal.coe_zero]

theorem real_add {x y : EReal} (hx : ∃ r : ℝ, x = (r : EReal)) (hy : ∃ r : ℝ, y = (r : EReal)) :
    ∃ r : ℝ, x + y = (r : EReal) := by
  obtain ⟨r, rfl⟩ := hx; obtain ⟨q, rfl⟩ := hy
  exact ⟨r + q, (EReal.coe_add r q).symm⟩

theorem real_mul {x y : EReal} (hx : ∃ r : ℝ, x = (r : EReal)) (hy : ∃ r : ℝ, y = (r : EReal)) :
    ∃ r : ℝ, x * y = (r : EReal) := by
  obtain ⟨r, rfl⟩ := hx; obtain ⟨q, rfl⟩ := hy
  exact ⟨r * q, (EReal.coe_mul r q).symm⟩

theorem real_max_zero {x : EReal} (hx : ∃ r : ℝ, x = (r : EReal)) : ∃ r : ℝ, max x 0 = (r : EReal) := by
  obtain ⟨r, rfl⟩ := hx
  refine ⟨max r 0, ?_⟩
  rw [← EReal.coe_zero]
  exact (EReal.coe_strictMono.monotone.map_max).symm

theorem real_zero : ∃ r : ℝ, (0 : EReal) = (r : EReal) := ⟨0, EReal.coe_zero.symm⟩

/-- A finite sum of reals is a real. -/
theorem real_finset_sum {ι : Type} (s : Finset ι) (f : ι → EReal) (h : ∀ i ∈ s, ∃ r : ℝ, f i = (r : EReal)) :
    ∃ r : ℝ, ∑ i ∈ s, f i = (r : EReal) := by
  classical
  revert h
  refine Finset.induction_on s ?_ ?_
  · intro _; exact ⟨0, by rw [Finset.sum_empty, EReal.coe_zero]⟩
  · intro a s ha ih h
    obtain ⟨r, hr⟩ := ih (fun i hi => h i (Finset.mem_insert_of_mem hi))
    obtain ⟨q, hq⟩ := h a (Finset.mem_insert_self a s)
    exact ⟨q + r, by rw [Finset.sum_insert ha, hr, hq, EReal.coe_add]⟩

theorem real_sum {ι : Type} [Fintype ι] (f : ι → EReal) (h : ∀ i, ∃ r : ℝ, f i = (r : EReal)) :
    ∃ r : ℝ, ∑ i, f i = (r : EReal) :=
  real_finset_sum Finset.univ f fun i _ => h i

/-- A sum over a finite type of products of entries of two real arrays is a real. -/
theorem real_sum_mul {ι : Type} [Fintype ι] (f g : ι → EReal) (hf : ∀ i, ∃ r : ℝ, f i = (r : EReal))
    (hg : ∀ i, ∃ r : ℝ, g i = (r : EReal)) : ∃ r : ℝ, ∑ i, f i * g i = (r : EReal) :=
  real_sum _ fun i => real_mul (hf i) (hg i)

/-! ## The three-pass split product -/

section Split
open Idealize.ShloMosaic.TileMatmul

variable {m k n : Nat}

/-- The three passes of a split product: with the high part the operand itself and the low part the operand minus
    itself, (high · high + high · low) + low · high, each pass a plain product into the zero accumulator. -/
def split3 (w : DotDims.WF ⟨2, ![m, k]⟩ ⟨2, ![k, n]⟩ ⟨2, ![m, n]⟩ [1] [0] [0] [1] [] []) (hb : FTy.bits .bf16 < FTy.bits .f32)
    (A : FVec Ideal ⟨2, ![m, k]⟩ .f32) (B : FVec Ideal ⟨2, ![k, n]⟩ .f32) : FVec Ideal ⟨2, ![m, n]⟩ .f32 :=
  addf (addf
    (matmul (plainDims w) none (truncf .bf16 A hb) (truncf .bf16 B hb) (constant ⟨2, ![m, n]⟩ .f32 0x00000000#32))
    (matmul (plainDims w) none (truncf .bf16 A hb) (truncf .bf16 (subf B B) hb) (constant ⟨2, ![m, n]⟩ .f32 0x00000000#32)))
    (matmul (plainDims w) none (truncf .bf16 (subf A A) hb) (truncf .bf16 B hb) (constant ⟨2, ![m, n]⟩ .f32 0x00000000#32))

/-- On real operands the low parts vanish, every product with a zero factor is zero, and the three passes are the
    plain product. -/
theorem split3_apply (w : DotDims.WF ⟨2, ![m, k]⟩ ⟨2, ![k, n]⟩ ⟨2, ![m, n]⟩ [1] [0] [0] [1] [] []) (hb : FTy.bits .bf16 < FTy.bits .f32)
    (A : FVec Ideal ⟨2, ![m, k]⟩ .f32) (B : FVec Ideal ⟨2, ![k, n]⟩ .f32) (hA : IsReal A) (hB : IsReal B)
    (a : Fin m) (b : Fin n) :
    split3 w hb A B (ix2 a b) = ∑ c : Fin k, A (ix2 a c) * B (ix2 c b) := by
  show matmul (plainDims w) none (truncf .bf16 A hb) (truncf .bf16 B hb) (constant ⟨2, ![m, n]⟩ .f32 0x00000000#32) (ix2 a b)
      + matmul (plainDims w) none (truncf .bf16 A hb) (truncf .bf16 (subf B B) hb) (constant ⟨2, ![m, n]⟩ .f32 0x00000000#32) (ix2 a b)
      + matmul (plainDims w) none (truncf .bf16 (subf A A) hb) (truncf .bf16 B hb) (constant ⟨2, ![m, n]⟩ .f32 0x00000000#32) (ix2 a b) = _
  rw [matmul_zero_apply, matmul_zero_apply, matmul_zero_apply]
  have h2 : ∑ c : Fin k, truncf (F := Ideal) .bf16 A hb (ix2 a c) * truncf (F := Ideal) .bf16 (subf B B) hb (ix2 c b) = 0 :=
    Finset.sum_eq_zero fun c _ => by
      show A (ix2 a c) * (B (ix2 c b) - B (ix2 c b)) = 0
      rw [real_sub_self (hB _), mul_zero]
  have h3 : ∑ c : Fin k, truncf (F := Ideal) .bf16 (subf A A) hb (ix2 a c) * truncf (F := Ideal) .bf16 B hb (ix2 c b) = 0 :=
    Finset.sum_eq_zero fun c _ => by
      show (A (ix2 a c) - A (ix2 a c)) * B (ix2 c b) = 0
      rw [real_sub_self (hA _), zero_mul]
  rw [h2, h3, add_zero, add_zero]
  rfl

/-- The split product of real arrays is a real array. -/
theorem split3_real (w : DotDims.WF ⟨2, ![m, k]⟩ ⟨2, ![k, n]⟩ ⟨2, ![m, n]⟩ [1] [0] [0] [1] [] []) (hb : FTy.bits .bf16 < FTy.bits .f32)
    (A : FVec Ideal ⟨2, ![m, k]⟩ .f32) (B : FVec Ideal ⟨2, ![k, n]⟩ .f32) (hA : IsReal A) (hB : IsReal B) :
    IsReal (split3 w hb A B) := by
  intro i
  obtain ⟨a, b, rfl⟩ : ∃ (a : Fin m) (b : Fin n), i = ix2 a b := ⟨i 0, i 1, eq_ix2 i⟩
  rw [split3_apply w hb A B hA hB]
  exact real_sum_mul _ _ (fun c => hA _) (fun c => hB _)

end Split

/-! ## Region 0's payloads at an index -/

/-- The cleared accumulator. -/
theorem k0_pay2_apply (p : Fin 1024) (q : Fin 128) : k0_pay2 (F := Ideal) (ix2 p q) = 0 := by
  show Ideal.ofBits .f32 0x00000000#32 = 0
  exact Ideal.ofBits_zero_f32

/-- Bias and clamp: the accumulator plus the bias row's entry of the column, clamped below at zero. -/
theorem k0_pay1_apply (o : Vec Ideal S1024x128 .f32) (b : Vec Ideal S1x128 .f32) (p : Fin 1024) (q : Fin 128) :
    k0_pay1 (F := Ideal) o b (ix2 p q) = max (o (ix2 p q) + b (ix2 0 q)) 0 := by
  unfold k0_pay1
  simp only [shapeCast_self]
  show max (o (ix2 p q) + broadcastTo S1024x128 b broadcasts_S1x128_S1024x128 (ix2 p q)) (Ideal.ofBits .f32 0x00000000#32) = _
  rw [broadcastTo_1b_ab_apply, Ideal.ofBits_zero_f32]

/-- The accumulation step is the accumulator plus the split product of the adjacency block with the split product of
    the feature block and the weights. -/
theorem k0_pay3_eq (x1 : Vec Ideal S2048x256 .f32) (x2 : Vec Ideal S256x128 .f32) (o : Vec Ideal S1024x128 .f32)
    (x0 : Vec Ideal S1024x2048 .f32) :
    k0_pay3 (F := Ideal) x1 x2 o x0
      = addf (shapeCast S1024x128 o shapeCasts_S1024x128_S1024x128)
          (split3 dot_S1024x2048_S2048x128_S1024x128_1_0_0_1_n_n_wf bitsLt_bf16_f32 x0
            (split3 dot_S2048x256_S256x128_S2048x128_1_0_0_1_n_n_wf bitsLt_bf16_f32 x1 x2)) := rfl

theorem k0_pay3_apply (x1 : Vec Ideal S2048x256 .f32) (x2 : Vec Ideal S256x128 .f32) (o : Vec Ideal S1024x128 .f32)
    (x0 : Vec Ideal S1024x2048 .f32) (h0 : IsReal x0) (h1 : IsReal x1) (h2 : IsReal x2) (p : Fin 1024) (q : Fin 128) :
    k0_pay3 (F := Ideal) x1 x2 o x0 (ix2 p q)
      = o (ix2 p q) + ∑ c : Fin 2048, x0 (ix2 p c) * ∑ f : Fin 256, x1 (ix2 c f) * x2 (ix2 f q) := by
  rw [k0_pay3_eq, shapeCast_self]
  show o (ix2 p q) + split3 _ _ x0 (split3 _ _ x1 x2) (ix2 p q) = _
  rw [split3_apply _ _ _ _ h0 (split3_real _ _ _ _ h1 h2)]
  congr 1
  refine Finset.sum_congr rfl fun c _ => ?_
  rw [split3_apply _ _ _ _ h1 h2]

/-! ## Region 0's payloads keep real entries real -/

theorem k0_pay2_real : IsReal (k0_pay2 (F := Ideal)) := by
  intro i
  obtain ⟨p, q, rfl⟩ : ∃ (p : Fin 1024) (q : Fin 128), i = ix2 p q := ⟨i 0, i 1, eq_ix2 i⟩
  rw [k0_pay2_apply]
  exact real_zero

theorem k0_pay1_real (o : Vec Ideal S1024x128 .f32) (b : Vec Ideal S1x128 .f32) (ho : IsReal o) (hb : IsReal b) :
    IsReal (k0_pay1 (F := Ideal) o b) := by
  intro i
  obtain ⟨p, q, rfl⟩ : ∃ (p : Fin 1024) (q : Fin 128), i = ix2 p q := ⟨i 0, i 1, eq_ix2 i⟩
  rw [k0_pay1_apply]
  exact real_max_zero (real_add (ho _) (hb _))

theorem k0_pay3_real (x1 : Vec Ideal S2048x256 .f32) (x2 : Vec Ideal S256x128 .f32) (o : Vec Ideal S1024x128 .f32)
    (x0 : Vec Ideal S1024x2048 .f32) (h0 : IsReal x0) (h1 : IsReal x1) (h2 : IsReal x2) (ho : IsReal o) :
    IsReal (k0_pay3 (F := Ideal) x1 x2 o x0) := by
  intro i
  obtain ⟨p, q, rfl⟩ : ∃ (p : Fin 1024) (q : Fin 128), i = ix2 p q := ⟨i 0, i 1, eq_ix2 i⟩
  rw [k0_pay3_apply x1 x2 o x0 h0 h1 h2]
  exact real_add (ho _) (real_sum_mul _ _ (fun c => h0 _) fun c => real_sum_mul _ _ (fun f => h1 _) fun f => h2 _)

end Cert.KernelIdeal.Pay

end
-- ==== Proof.PayIdeal1.lean ====
/-
  The kernel's payloads read at an index, at the extended reals: the second layer's region with its logistic head.
  The same three-pass split products as in the first layer's region, collapsed to plain finite sums on real entries.
-/
import proofs.«161297_j25486335935216_2_alg».proof.Proof.Gen.KernelIdeal.Skeleton
import proofs.«161297_j25486335935216_2_alg».proof.Proof.Spec
import proofs.«161297_j25486335935216_2_alg».proof.Proof.PayIdeal0
import Idealize.ShloMosaic.PureOps.Ideal.Laws
import Idealize.ShloMosaic.Lib.ValueIdx
import Idealize.ShloMosaic.Lib.ValueLayout
import Idealize.ShloMosaic.Lib.Pipeline.Value

set_option synthInstance.maxSize 4096

noncomputable section

open scoped BigOperators

namespace Cert.KernelIdeal.Pay

open Idealize.ShloMosaic Idealize.ShloMosaic.ValueIdx Idealize.SL.Sem
open Cert.KernelIdeal Cert.KernelIdeal.Gen Cert.Spec

/-! ## Region 1's payloads at an index -/

/-- The cleared accumulator. -/
theorem k1_pay2_apply (p : Fin 1024) (q : Fin 128) : k1_pay2 (F := Ideal) (ix2 p q) = 0 := by
  unfold k1_pay2
  simp only [shapeCast_self]
  show Ideal.ofBits .f32 0x00000000#32 = 0
  exact Ideal.ofBits_zero_f32

theorem k1_pay2_real : IsReal (k1_pay2 (F := Ideal)) := by
  intro i
  obtain ⟨p, q, rfl⟩ : ∃ (p : Fin 1024) (q : Fin 128), i = ix2 p q := ⟨i 0, i 1, eq_ix2 i⟩
  rw [k1_pay2_apply]
  exact real_zero

/-- The accumulation step is the accumulator plus the split product of the adjacency block with the split product of
    the first layer's block and the weights. -/
theorem k1_pay3_eq (x1 : Vec Ideal S2048x128 .f32) (x2 : Vec Ideal S128x128 .f32) (o : Vec Ideal S1024x128 .f32)
    (x0 : Vec Ideal S1024x2048 .f32) :
    k1_pay3 (F := Ideal) x1 x2 o x0
      = shapeCast S1024x128 (addf o
          (split3 dot_S1024x2048_S2048x128_S1024x128_1_0_0_1_n_n_wf bitsLt_bf16_f32 x0
            (split3 dot_S2048x128_S128x128_S2048x128_1_0_0_1_n_n_wf bitsLt_bf16_f32
              (shapeCast S2048x128 x1 shapeCasts_S2048x128_S2048x128) x2))) shapeCasts_S1024x128_S1024x128 := rfl

theorem k1_pay3_apply (x1 : Vec Ideal S2048x128 .f32) (x2 : Vec Ideal S128x128 .f32) (o : Vec Ideal S1024x128 .f32)
    (x0 : Vec Ideal S1024x2048 .f32) (h0 : IsReal x0) (h1 : IsReal x1) (h2 : IsReal x2) (p : Fin 1024) (q : Fin 128) :
    k1_pay3 (F := Ideal) x1 x2 o x0 (ix2 p q)
      = o (ix2 p q) + ∑ c : Fin 2048, x0 (ix2 p c) * ∑ f : Fin 128, x1 (ix2 c f) * x2 (ix2 f q) := by
  rw [k1_pay3_eq, shapeCast_self, shapeCast_self]
  show o (ix2 p q) + split3 _ _ x0 (split3 _ _ x1 x2) (ix2 p q) = _
  rw [split3_apply _ _ _ _ h0 (split3_real _ _ _ _ h1 h2)]
  congr 1
  refine Finset.sum_congr rfl fun c _ => ?_
  rw [split3_apply _ _ _ _ h1 h2]

theorem k1_pay3_real (x1 : Vec Ideal S2048x128 .f32) (x2 : Vec Ideal S128x128 .f32) (o : Vec Ideal S1024x128 .f32)
    (x0 : Vec Ideal S1024x2048 .f32) (h0 : IsReal x0) (h1 : IsReal x1) (h2 : IsReal x2) (ho : IsReal o) :
    IsReal (k1_pay3 (F := Ideal) x1 x2 o x0) := by
  intro i
  obtain ⟨p, q, rfl⟩ : ∃ (p : Fin 1024) (q : Fin 128), i = ix2 p q := ⟨i 0, i 1, eq_ix2 i⟩
  rw [k1_pay3_apply x1 x2 o x0 h0 h1 h2]
  exact real_add (ho _) (real_sum_mul _ _ (fun c => h0 _) fun c => real_sum_mul _ _ (fun f => h1 _) fun f => h2 _)

/-- The second layer's activations of the block: accumulator plus bias row, clamped below at zero. -/
def act2 (acc : Vec Ideal S1024x128 .f32) (b : Vec Ideal S1x128 .f32) : FVec Ideal S1024x128 .f32 :=
  maximumf (addf acc (broadcastTo S1024x128 (shapeCast S1x128 b shapeCasts_S1x128_S1x128) broadcasts_S1x128_S1024x128))
    (broadcast S1024x128 (Scalar.ofBits (F := Ideal) .f32 0x00000000#32))

theorem act2_apply (acc : Vec Ideal S1024x128 .f32) (b : Vec Ideal S1x128 .f32) (p : Fin 1024) (q : Fin 128) :
    act2 acc b (ix2 p q) = max (acc (ix2 p q) + b (ix2 0 q)) 0 := by
  unfold act2
  rw [shapeCast_self]
  show max (acc (ix2 p q) + broadcastTo S1024x128 b broadcasts_S1x128_S1024x128 (ix2 p q)) (Ideal.ofBits .f32 0x00000000#32) = _
  rw [broadcastTo_1b_ab_apply, Ideal.ofBits_zero_f32]

theorem act2_real (acc : Vec Ideal S1024x128 .f32) (b : Vec Ideal S1x128 .f32) (ha : IsReal acc) (hb : IsReal b) :
    IsReal (act2 acc b) := by
  intro i
  obtain ⟨p, q, rfl⟩ : ∃ (p : Fin 1024) (q : Fin 128), i = ix2 p q := ⟨i 0, i 1, eq_ix2 i⟩
  rw [act2_apply]
  exact real_max_zero (real_add (ha _) (hb _))

/-- The head is the logistic function of the split product of the activations with the head's column, plus the
    scalar bias along the rows. -/
theorem k1_pay1_eq (acc : Vec Ideal S1024x128 .f32) (b : Vec Ideal S1x128 .f32) (wf : Vec Ideal S128x1 .f32)
    (bf : Vec Ideal S1x1 .f32) :
    k1_pay1 (F := Ideal) acc b wf bf
      = logistic (addf (split3 dot_S1024x128_S128x1_S1024x1_1_0_0_1_n_n_wf bitsLt_bf16_f32 (act2 acc b) wf)
          (broadcastTo S1024x1 (shapeCast S1x1 bf shapeCasts_S1x1_S1x1) broadcasts_S1x1_S1024x1)) := rfl

theorem k1_pay1_apply (acc : Vec Ideal S1024x128 .f32) (b : Vec Ideal S1x128 .f32) (wf : Vec Ideal S128x1 .f32)
    (bf : Vec Ideal S1x1 .f32) (ha : IsReal acc) (hb : IsReal b) (hw : IsReal wf) (p : Fin 1024) :
    k1_pay1 (F := Ideal) acc b wf bf (ix2 p 0)
      = Ideal.logistic ((∑ j : Fin 128, max (acc (ix2 p j) + b (ix2 0 j)) 0 * wf (ix2 j 0)) + bf (ix2 0 0)) := by
  rw [k1_pay1_eq, shapeCast_self]
  show Ideal.logistic (split3 _ _ (act2 acc b) wf (ix2 p 0) + broadcastTo S1024x1 bf broadcasts_S1x1_S1024x1 (ix2 p 0)) = _
  rw [split3_apply _ _ _ _ (act2_real acc b ha hb) hw, broadcastTo_1b_ab_apply]
  congr 2
  refine Finset.sum_congr rfl fun j _ => ?_
  rw [act2_apply]

end Cert.KernelIdeal.Pay

end
-- ==== Proof.PayIdeal.lean ====
/-
  The kernel's payloads read at an index, at the extended reals: both regions.
-/
import proofs.«161297_j25486335935216_2_alg».proof.Proof.PayIdeal0
import proofs.«161297_j25486335935216_2_alg».proof.Proof.PayIdeal1
-- ==== Proof.BlockSum.lean ====
/-
  Blocked sums over the 8192 nodes.

  A sum over 8192 indices is the sum over 4 consecutive blocks of 2048 indices of the sums inside each block, and
  so is what an accumulator holds that starts at zero and adds one block's sum at a time.  Everything is stated over
  the extended reals, where addition is associative and commutative at the infinities too (an additive commutative
  monoid), so no finiteness is needed.
-/
import Mathlib
import proofs.«161297_j25486335935216_2_alg».proof.Proof.Spec

noncomputable section

namespace Cert.Blk

/-- The sum over all 8192 indices, regrouped into 4 blocks of 2048 consecutive indices. -/
theorem sum_blocks4 (g : Fin 8192 → EReal) :
    ∑ c : Fin 8192, g c = ∑ kb : Fin 4, ∑ c : Fin 2048, g ⟨2048 * kb.val + c.val, by omega⟩ := by
  rw [← Fintype.sum_prod_type' (f := fun (kb : Fin 4) (c : Fin 2048) => g ⟨2048 * kb.val + c.val, by omega⟩)]
  symm
  refine Fintype.sum_equiv (finProdFinEquiv (m := 4) (n := 2048)) _ _ ?_
  rintro ⟨kb, c⟩
  congr 1
  ext
  simp only [finProdFinEquiv_apply_val]
  omega

/-- Starting from zero and adding the four block sums one after the other gives the full sum. -/
theorem acc4 (g : Fin 8192 → EReal) :
    (((0 + ∑ c : Fin 2048, g ⟨2048 * 0 + c.val, by omega⟩) + ∑ c : Fin 2048, g ⟨2048 * 1 + c.val, by omega⟩)
        + ∑ c : Fin 2048, g ⟨2048 * 2 + c.val, by omega⟩) + ∑ c : Fin 2048, g ⟨2048 * 3 + c.val, by omega⟩
      = ∑ c : Fin 8192, g c := by
  rw [sum_blocks4 g, Fin.sum_univ_four, zero_add]
  rfl

/-- The accumulator after `n` blocks: zero, then one block's sum added per step (nothing beyond the fourth). -/
def accUpTo (g : Fin 8192 → EReal) : ℕ → EReal
  | 0 => 0
  | (n+1) => accUpTo g n + (if h : n < 4 then ∑ c : Fin 2048, g ⟨2048 * n + c.val, by omega⟩ else 0)

/-- After the four blocks the accumulator holds the full sum. -/
theorem accUpTo_four (g : Fin 8192 → EReal) : accUpTo g 4 = ∑ c : Fin 8192, g c := by
  rw [← acc4 g]
  simp only [accUpTo]
  rfl

end Cert.Blk

end
-- ==== Proof.Arrs.lean ====
/-
  The two arrays the kernel's regions leave, written over the contents `V` a region finds in the buffers it reads:
  the first layer's activations (left in `main_v3`) and the result (left in `main_v4`).
-/
import proofs.«161297_j25486335935216_2_alg».proof.KernelIdeal
import proofs.«161297_j25486335935216_2_alg».proof.Proof.Spec
import Idealize.ShloMosaic.Lib.ValueIdx

noncomputable section

open Idealize.ShloMosaic Idealize.ShloMosaic.TcCoe Idealize.SL.Sem Idealize.ShloMosaic.ValueIdx

namespace Cert.KernelIdeal.Arr

open Cert.KernelIdeal Cert.Spec

variable (V : (c : Dev nD) → (b : Ref sig .tc) → Buf (Elt Ideal) ((c : Thread nD τ).loc b))

/-! The buffers' contents as arrays of extended reals over their literal shapes. -/
abbrev rd_arg0 (c : Dev nD) : S8192x256.Idx → EReal := V c main_arg0
abbrev rd_arg1 (c : Dev nD) : S8192x8192.Idx → EReal := V c main_arg1
abbrev rd_arg2 (c : Dev nD) : S256x128.Idx → EReal := V c main_arg2
abbrev rd_arg4 (c : Dev nD) : S128x128.Idx → EReal := V c main_arg4
abbrev rd_arg6 (c : Dev nD) : S128x1.Idx → EReal := V c main_arg6
abbrev rd_v0 (c : Dev nD) : S1x128.Idx → EReal := V c main_v0
abbrev rd_v1 (c : Dev nD) : S1x128.Idx → EReal := V c main_v1
abbrev rd_v2 (c : Dev nD) : S1x1.Idx → EReal := V c main_v2
abbrev rd_v3 (c : Dev nD) : S8192x128.Idx → EReal := V c main_v3

/-- Region 0: node `c'`'s term of the aggregation at row `r`, column `q`: A(r, c') · (X·W1)(c', q). -/
def term0 (c : Dev nD) (r : Fin 8192) (q : Fin 128) (c' : Fin 8192) : EReal :=
  rd_arg1 V c (ix2 r c') * ∑ f : Fin 256, rd_arg0 V c (ix2 c' f) * rd_arg2 V c (ix2 f q)

/-- The first layer's activations as the array `main_v3` holds them, the bias read off the row `main_v0`. -/
def H1arr (c : Dev nD) : S8192x128.Idx → EReal := fun i =>
  max ((∑ c' : Fin 8192, term0 V c (i 0) (i 1) c') + rd_v0 V c (ix2 (0 : Fin 1) (i 1))) 0

/-- Region 1: node `c'`'s term of the aggregation at row `r`, column `q`: A(r, c') · (H1·W2)(c', q), the first layer's
    activations read off `main_v3`. -/
def term1 (c : Dev nD) (r : Fin 8192) (q : Fin 128) (c' : Fin 8192) : EReal :=
  rd_arg1 V c (ix2 r c') * ∑ f : Fin 128, rd_v3 V c (ix2 c' f) * rd_arg4 V c (ix2 f q)

/-- The result as the array `main_v4` holds it: the second layer over `main_v3`, the biases read off the rows
    `main_v1` and `main_v2`, then the head. -/
def OUTarr (c : Dev nD) : S8192x1.Idx → EReal := fun i =>
  Ideal.logistic ((∑ j : Fin 128, max ((∑ c' : Fin 8192, term1 V c (i 0) j c') + rd_v1 V c (ix2 (0 : Fin 1) j)) 0
      * rd_arg6 V c (ix2 j (0 : Fin 1))) + rd_v2 V c (ix2 (0 : Fin 1) (0 : Fin 1)))

end Cert.KernelIdeal.Arr

end
-- ==== Proof.R0Value.lean ====
/-
  Region 0, read as values at the ideal instance: the first layer's activations.

  The output block of row block `i` stays in its staging buffer over the four reduction steps k = 0 … 3. After step k
  it holds, at (p, q), the partial aggregation ∑ over the nodes c' of the column blocks 0 … k of
  A(1024·i + p, c') · (X·W1)(c', q) — each step adds its own block's 2048 terms to what the step before left, the first
  one to zero —, and after step 3 the bias row is added and the result clamped below at zero. The partial sums in block
  order are the whole sum over the 8192 nodes, so the block written back at step 3 is block `i` of the layer's
  activations, and the eight row blocks tile the array.
  The three-pass products collapse to plain products because the entries of A, X and W1 are real numbers.
-/
import proofs.«161297_j25486335935216_2_alg».proof.Proof.KI.R0Frame
import proofs.«161297_j25486335935216_2_alg».proof.Proof.PayIdeal
import proofs.«161297_j25486335935216_2_alg».proof.Proof.BlockSum
import proofs.«161297_j25486335935216_2_alg».proof.Proof.Spec
import proofs.«161297_j25486335935216_2_alg».proof.Proof.Arrs
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val0

open Cert.KernelIdeal Cert.KernelIdeal.Gen Cert.KernelIdeal.Fr Cert.KernelIdeal.Pay Cert.Spec Cert.KernelIdeal.Arr

variable (V : (c : Dev nD) → (b : Ref sig .tc) → Buf (Elt Ideal) ((c : Thread nD τ).loc b))

/-! ## Where each window's block sits -/

/-- The printed index maps over the grid: point `t` is row block `t / 4`, reduction step `t % 4`. -/
theorem idx0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

theorem tlt (t : Fin cfg0.N) : t.val < 32 := lt_of_lt_of_eq t.isLt (show cfg0.N = 32 from N_0)

/-- Row `p` of the row block of point `t`, as a node. -/
def rowOf (t : Fin cfg0.N) (p : Fin 1024) : Fin 8192 := ⟨1024 * (t.val / 4) + p.val, by have := tlt t; have := p.isLt; omega⟩
/-- Node `q` of column block `k`. -/
def colOf (k : ℕ) (hk : k < 4) (q : Fin 2048) : Fin 8192 := ⟨2048 * k + q.val, by have := q.isLt; omega⟩

/-- The block of A at point `t`: rows of row block t / 4, columns of column block t % 4. -/
theorem blkA (c : Dev nD) (t : Fin cfg0.N) (p : Fin 1024) (q : Fin 2048) :
    (iblk0 V c 0 t : Vec Ideal S1024x2048 .f32) (ix2 p q)
      = rd_arg1 V c (ix2 (rowOf t p) (colOf (t.val % 4) (Nat.mod_lt _ (by decide)) q)) := by
  obtain ⟨e0, e1, -⟩ := idx0 t
  unfold iblk0
  rw [View.read_apply]
  show rd_arg1 V c _ = rd_arg1 V c _
  refine congrArg (rd_arg1 V c) ?_
  funext a
  apply Fin.ext
  match a with
  | ⟨0, _⟩ => show win0_0.index t 0 * 1024 + 1 * p.val = 1024 * (t.val / 4) + p.val; rw [e0]; omega
  | ⟨1, _⟩ => show win0_0.index t 1 * 2048 + 1 * q.val = 2048 * (t.val % 4) + q.val; rw [e1]; omega

/-- The block of X at point `t`: the nodes of column block t % 4, all features. -/
theorem blkX (c : Dev nD) (t : Fin cfg0.N) (q : Fin 2048) (f : Fin 256) :
    (iblk0 V c 1 t : Vec Ideal S2048x256 .f32) (ix2 q f)
      = rd_arg0 V c (ix2 (colOf (t.val % 4) (Nat.mod_lt _ (by decide)) q) f) := by
  obtain ⟨-, -, e0, e1, -⟩ := idx0 t
  unfold iblk0
  rw [View.read_apply]
  show rd_arg0 V c _ = rd_arg0 V c _
  refine congrArg (rd_arg0 V c) ?_
  funext a
  apply Fin.ext
  match a with
  | ⟨0, _⟩ => show win0_1.index t 0 * 2048 + 1 * q.val = 2048 * (t.val % 4) + q.val; rw [e0]; omega
  | ⟨1, _⟩ => show win0_1.index t 1 * 256 + 1 * f.val = f.val; rw [e1]; omega

/-- The weights' one block is the whole table. -/
theorem blkW (c : Dev nD) (t : Fin cfg0.N) (f : Fin 256) (q : Fin 128) :
    (iblk0 V c 2 t : Vec Ideal S256x128 .f32) (ix2 f q) = rd_arg2 V c (ix2 f q) := by
  obtain ⟨-, -, -, -, e0, e1, -⟩ := idx0 t
  unfold iblk0
  rw [View.read_apply]
  show rd_arg2 V c _ = rd_arg2 V c _
  refine congrArg (rd_arg2 V c) ?_
  funext a
  apply Fin.ext
  match a with
  | ⟨0, _⟩ => show win0_2.index t 0 * 256 + 1 * f.val = f.val; rw [e0]; omega
  | ⟨1, _⟩ => show win0_2.index t 1 * 128 + 1 * q.val = q.val; rw [e1]; omega

/-- The bias row's one block is the whole row. -/
theorem blkB (c : Dev nD) (t : Fin cfg0.N) (u : Fin 1) (q : Fin 128) :
    (iblk0 V c 3 t : Vec Ideal S1x128 .f32) (ix2 u q) = rd_v0 V c (ix2 u q) := by
  obtain ⟨-, -, -, -, -, -, e0, e1, -⟩ := idx0 t
  unfold iblk0
  rw [View.read_apply]
  show rd_v0 V c _ = rd_v0 V c _
  refine congrArg (rd_v0 V c) ?_
  funext a
  apply Fin.ext
  match a with
  | ⟨0, _⟩ => show win0_3.index t 0 * 1 + 1 * u.val = u.val; rw [e0]; omega
  | ⟨1, _⟩ => show win0_3.index t 1 * 128 + 1 * q.val = q.val; rw [e1]; omega

/-- A block of an array of reals is an array of reals. -/
theorem real_blkA (c : Dev nD) (t : Fin cfg0.N) (h : IsReal (rd_arg1 V c)) :
    IsReal (iblk0 V c 0 t : Vec Ideal S1024x2048 .f32) := fun y => by
  unfold iblk0
  rw [View.read_apply]
  exact h _

theorem real_blkX (c : Dev nD) (t : Fin cfg0.N) (h : IsReal (rd_arg0 V c)) :
    IsReal (iblk0 V c 1 t : Vec Ideal S2048x256 .f32) := fun y => by
  unfold iblk0
  rw [View.read_apply]
  exact h _

theorem real_blkW (c : Dev nD) (t : Fin cfg0.N) (h : IsReal (rd_arg2 V c)) :
    IsReal (iblk0 V c 2 t : Vec Ideal S256x128 .f32) := fun y => by
  unfold iblk0
  rw [View.read_apply]
  exact h _

/-! ## What the output's staging buffer holds after each point -/

/-- The three input blocks of a point as arrays of extended reals over their literal shapes. -/
abbrev ibA (c : Dev nD) (t : Fin cfg0.N) : S1024x2048.Idx → EReal := iblk0 V c 0 t
abbrev ibX (c : Dev nD) (t : Fin cfg0.N) : S2048x256.Idx → EReal := iblk0 V c 1 t
abbrev ibW (c : Dev nD) (t : Fin cfg0.N) : S256x128.Idx → EReal := iblk0 V c 2 t

/-- One reduction step's 2048 terms, through the blocks the point reads. -/
theorem step_sum (c : Dev nD) (t : Fin cfg0.N) (p : Fin 1024) (q : Fin 128) :
    (∑ c' : Fin 2048, ibA V c t (ix2 p c') * ∑ f : Fin 256, ibX V c t (ix2 c' f) * ibW V c t (ix2 f q))
      = ∑ c' : Fin 2048, term0 V c (rowOf t p) q (colOf (t.val % 4) (Nat.mod_lt _ (by decide)) c') := by
  refine Finset.sum_congr rfl fun c' _ => ?_
  unfold term0
  refine (congrArg (fun z : EReal => z * _) (blkA V c t p c')).trans ?_
  refine congrArg (fun z : EReal => rd_arg1 V c _ * z) ?_
  refine Finset.sum_congr rfl fun f _ => ?_
  exact (congrArg (fun z : EReal => z * _) (blkX V c t c' f)).trans (congrArg (fun z : EReal => rd_arg0 V c _ * z) (blkW V c t f q))

/-- A step's payload at (p, q): what the buffer held plus the step's 2048 terms. -/
theorem pay3_at (c : Dev nD) (hA : IsReal (rd_arg1 V c)) (hX : IsReal (rd_arg0 V c)) (hW : IsReal (rd_arg2 V c))
    (t : Fin cfg0.N) (o : Vec Ideal S1024x128 .f32) (p : Fin 1024) (q : Fin 128) :
    k0_pay3 (F := Ideal) (iblk0 V c 1 t) (iblk0 V c 2 t) o (iblk0 V c 0 t) (ix2 p q)
      = o (ix2 p q) + ∑ c' : Fin 2048, term0 V c (rowOf t p) q (colOf (t.val % 4) (Nat.mod_lt _ (by decide)) c') := by
  refine (k0_pay3_apply (iblk0 V c 1 t) (iblk0 V c 2 t) o (iblk0 V c 0 t)
    (real_blkA V c t hA) (real_blkX V c t hX) (real_blkW V c t hW) p q).trans ?_
  exact congrArg (o (ix2 p q) + ·) (step_sum V c t p q)

/-! ## The running aggregation -/

/-- The row block does not change within a group of four points. -/
theorem rowOf_succ (n : ℕ) (h : n + 1 < cfg0.N) (h0 : ¬(n + 1) % 4 = 0) (p : Fin 1024) :
    rowOf ⟨n, Nat.lt_of_succ_lt h⟩ p = rowOf ⟨n + 1, h⟩ p := by
  apply Fin.ext
  show 1024 * (n / 4) + p.val = 1024 * ((n + 1) / 4) + p.val
  omega

/-- One more block: the accumulator after `k + 1` blocks is the one after `k` plus block `k`'s 2048 terms. -/
theorem acc_step (g : Fin 8192 → EReal) (k : ℕ) (hk : k < 4) :
    Blk.accUpTo g (k + 1) = Blk.accUpTo g k + ∑ c' : Fin 2048, g (colOf k hk c') := by
  show Blk.accUpTo g k + (if h : k < 4 then _ else 0) = _
  rw [dif_pos hk]
  rfl

/-- A step at point `t` over a buffer that holds the aggregation over the column blocks before `t % 4` leaves the
    aggregation over the column blocks up to `t % 4`. -/
theorem step_at (c : Dev nD) (hA : IsReal (rd_arg1 V c)) (hX : IsReal (rd_arg0 V c)) (hW : IsReal (rd_arg2 V c))
    (t : Fin cfg0.N) (o : Vec Ideal S1024x128 .f32) (p : Fin 1024) (q : Fin 128)
    (ho : o (ix2 p q) = Blk.accUpTo (term0 V c (rowOf t p) q) (t.val % 4)) :
    k0_pay3 (F := Ideal) (iblk0 V c 1 t) (iblk0 V c 2 t) o (iblk0 V c 0 t) (ix2 p q)
      = Blk.accUpTo (term0 V c (rowOf t p) q) (t.val % 4 + 1) :=
  (pay3_at V c hA hX hW t o p q).trans
    ((congrArg (fun z : EReal => z + ∑ c' : Fin 2048, term0 V c (rowOf t p) q (colOf (t.val % 4) (Nat.mod_lt _ (by decide)) c')) ho).trans
      (acc_step (term0 V c (rowOf t p) q) (t.val % 4) (Nat.mod_lt _ (by decide))).symm)

/-- What the three cases of a point leave, as payloads of the blocks the point reads. -/
theorem out_A (c : Dev nD) (t : Fin cfg0.N) (h0 : t.val % 4 = 0) (h1 : ¬t.val % 4 = 3) (p : Fin 1024) (q : Fin 128) :
    outsAt0 V c t.val t.isLt (ix2 p q)
      = k0_pay3 (F := Ideal) (iblk0 V c 1 t) (iblk0 V c 2 t) (k0_pay2 (F := Ideal)) (iblk0 V c 0 t) (ix2 p q) :=
  congrFun ((outsAt0_A V c t h0 h1).trans (out0_A_4_eq (F := Ideal) c (grid0.coords t) (ms0_0 t) (hs0_0 t) (ms0_1 t) (hs0_1 t)
    (ms0_2 t) (hs0_2 t) (ms0_3 t) (hs0_3 t) (ms0_4 t) (hs0_4 t) _ _ (iblk0 V c 0 t) (iblk0 V c 1 t) (iblk0 V c 2 t) (iblk0 V c 3 t))) (ix2 p q)

theorem out_B (c : Dev nD) (t : Fin cfg0.N) (h0 : ¬t.val % 4 = 0) (h1 : ¬t.val % 4 = 3) (p : Fin 1024) (q : Fin 128) :
    outsAt0 V c t.val t.isLt (ix2 p q)
      = k0_pay3 (F := Ideal) (iblk0 V c 1 t) (iblk0 V c 2 t)
          (outsAt0 V c (t.val - 1) (Nat.lt_of_le_of_lt (Nat.sub_le _ _) t.isLt)) (iblk0 V c 0 t) (ix2 p q) :=
  congrFun ((outsAt0_B V c t h0 h1).trans (out0_B_4_eq (F := Ideal) c (grid0.coords t) (ms0_0 t) (hs0_0 t) (ms0_1 t) (hs0_1 t)
    (ms0_2 t) (hs0_2 t) (ms0_3 t) (hs0_3 t) (ms0_4 t) (hs0_4 t) _ _ (iblk0 V c 0 t) (iblk0 V c 1 t) (iblk0 V c 2 t) (iblk0 V c 3 t)
    (outsAt0 V c (t.val - 1) (Nat.lt_of_le_of_lt (Nat.sub_le _ _) t.isLt)))) (ix2 p q)

theorem out_C (c : Dev nD) (t : Fin cfg0.N) (h0 : ¬t.val % 4 = 0) (h1 : t.val % 4 = 3) (p : Fin 1024) (q : Fin 128) :
    outsAt0 V c t.val t.isLt (ix2 p q)
      = k0_pay1 (F := Ideal) (k0_pay3 (F := Ideal) (iblk0 V c 1 t) (iblk0 V c 2 t)
          (outsAt0 V c (t.val - 1) (Nat.lt_of_le_of_lt (Nat.sub_le _ _) t.isLt)) (iblk0 V c 0 t)) (iblk0 V c 3 t) (ix2 p q) :=
  congrFun ((outsAt0_C V c t h0 h1).trans (out0_C_4_eq (F := Ideal) c (grid0.coords t) (ms0_0 t) (hs0_0 t) (ms0_1 t) (hs0_1 t)
    (ms0_2 t) (hs0_2 t) (ms0_3 t) (hs0_3 t) (ms0_4 t) (hs0_4 t) _ _ (iblk0 V c 0 t) (iblk0 V c 1 t) (iblk0 V c 2 t) (iblk0 V c 3 t)
    (outsAt0 V c (t.val - 1) (Nat.lt_of_le_of_lt (Nat.sub_le _ _) t.isLt)))) (ix2 p q)

/-- AFTER POINT `n` the output's staging buffer holds, at (p, q), the aggregation over the column blocks 0 … n % 4 of
    the terms of row `rowOf n p`; after the last step of a group, the bias added and the clamp applied. -/
theorem outsAt0_eq (c : Dev nD) (hA : IsReal (rd_arg1 V c)) (hX : IsReal (rd_arg0 V c)) (hW : IsReal (rd_arg2 V c)) :
    ∀ (n : ℕ) (h : n < cfg0.N) (p : Fin 1024) (q : Fin 128),
    outsAt0 V c n h (ix2 p q)
      = if n % 4 = 3 then max (Blk.accUpTo (term0 V c (rowOf ⟨n, h⟩ p) q) 4 + rd_v0 V c (ix2 (0 : Fin 1) q)) 0
        else Blk.accUpTo (term0 V c (rowOf ⟨n, h⟩ p) q) (n % 4 + 1) := by
  intro n
  induction n with
  | zero =>
    intro h p q
    rw [if_neg (by decide)]
    exact (out_A V c ⟨0, h⟩ rfl (show ¬(0 : ℕ) % 4 = 3 by decide) p q).trans
      (step_at V c hA hX hW ⟨0, h⟩ _ p q (k0_pay2_apply p q))
  | succ n ih =>
    intro h p q
    have hN := tlt ⟨n + 1, h⟩
    have hn : n < cfg0.N := Nat.lt_of_succ_lt h
    have ez : ∀ k : ℕ, k = 0 → (0 : EReal) = Blk.accUpTo (term0 V c (rowOf ⟨n + 1, h⟩ p) q) k := fun k hk => by subst hk; rfl
    by_cases h0 : (n + 1) % 4 = 0
    · -- a group's first step: from zero
      rw [if_neg (by omega)]
      exact (out_A V c ⟨n + 1, h⟩ h0 (by dsimp only; omega) p q).trans
        (step_at V c hA hX hW ⟨n + 1, h⟩ _ p q ((k0_pay2_apply p q).trans (ez _ h0)))
    · have hpm : n % 4 + 1 = (n + 1) % 4 := by omega
      -- what the point before left: the aggregation over the column blocks before this one
      have hprev : outsAt0 V c n hn (ix2 p q) = Blk.accUpTo (term0 V c (rowOf ⟨n + 1, h⟩ p) q) ((n + 1) % 4) := by
        refine (ih hn p q).trans ((if_neg (by omega)).trans ?_)
        rw [rowOf_succ n h h0 p, hpm]
      by_cases h1 : (n + 1) % 4 = 3
      · -- the last step: the step's terms, then the bias and the clamp
        rw [if_pos h1]
        refine (out_C V c ⟨n + 1, h⟩ h0 h1 p q).trans ((k0_pay1_apply _ _ p q).trans ?_)
        have hs := (step_at V c hA hX hW ⟨n + 1, h⟩ (outsAt0 V c n hn) p q hprev).trans
          (congrArg (fun k => Blk.accUpTo (term0 V c (rowOf ⟨n + 1, h⟩ p) q) (k + 1)) h1)
        exact congrArg₂ (fun a b : EReal => max (a + b) 0) hs (blkB V c ⟨n + 1, h⟩ 0 q)
      · rw [if_neg h1]
        exact (out_B V c ⟨n + 1, h⟩ h0 h1 p q).trans (step_at V c hA hX hW ⟨n + 1, h⟩ (outsAt0 V c n hn) p q hprev)

/-! ## The array the region leaves -/

/-- WHAT A WRITING POINT WRITES BACK (the last step of a group) is its row block of the activations. -/
theorem flushed0_eq (c : Dev nD) (hA : IsReal (rd_arg1 V c)) (hX : IsReal (rd_arg0 V c)) (hW : IsReal (rd_arg2 V c))
    (t : Fin cfg0.N) (hf : (cfg0.win 4).flush t = true) :
    (dat0 V c).flushed 4 t = ((cfg0.win 4).blk t).view.read (Elt Ideal) (H1arr V c) := by
  have h3 : t.val % 4 = 3 := (flush0_4 t).mp hf
  obtain ⟨-, -, -, -, -, -, -, -, e0, e1⟩ := idx0 t
  show (cfg0.win 4).cut (grid0.coords t) ((dat0 V c).after 4 t) = _
  rw [after0_4]
  funext y
  obtain ⟨p, q, rfl⟩ : ∃ (p : Fin 1024) (q : Fin 128), y = ix2 p q := ⟨y 0, y 1, eq_ix2 y⟩
  rw [View.read_apply]
  have hemb : ((cfg0.win 4).blk t).view.emb (ix2 p q) = (ix2 (rowOf t p) q : S8192x128.Idx) := by
    funext a
    apply Fin.ext
    match a with
    | ⟨0, _⟩ => show win0_4.index t 0 * 1024 + 1 * p.val = 1024 * (t.val / 4) + p.val; rw [e0]; omega
    | ⟨1, _⟩ => show win0_4.index t 1 * 128 + 1 * q.val = q.val; rw [e1]; omega
  refine Eq.trans ?_ (congrArg (H1arr V c) hemb).symm
  refine ((outsAt0_eq V c hA hX hW t.val t.isLt p q).trans (if_pos h3)).trans ?_
  rw [Blk.accUpTo_four]
  rfl

/-- An index of the array is in point `t`'s block iff each coordinate is in the block's range on its axis. -/
theorem mem_blk0 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v3).slice (win0_4.rect t)).set ↔ _
  rw [View.set_slice_whole, Rect.mem_set_unit]
  exact Iff.rfl

/-- The eight row blocks, each written back at the last step of its group, tile the array. -/
theorem cover0 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 32 := N_0
  refine ⟨⟨4 * ((i 0).val / 1024) + 3, by omega⟩, (flush0_4 _).mpr (by dsimp only; omega), ?_⟩
  rw [mem_blk0]
  obtain ⟨-, -, -, -, -, -, -, -, e0, e1⟩ := idx0 ⟨4 * ((i 0).val / 1024) + 3, by omega⟩
  intro a
  match a with
  | ⟨0, _⟩ => show win0_4.index _ (0 : Fin 2) * 1024 ≤ (i 0).val ∧ (i 0).val < win0_4.index _ (0 : Fin 2) * 1024 + 1024; rw [e0]; dsimp only; omega
  | ⟨1, _⟩ => show win0_4.index _ (1 : Fin 2) * 128 ≤ (i 1).val ∧ (i 1).val < win0_4.index _ (1 : Fin 2) * 128 + 128; rw [e1]; omega

/-- THE ARRAY the region leaves in `main_v3`: the first layer's activations. -/
theorem final0 (c : Dev nD) (hA : IsReal (rd_arg1 V c)) (hX : IsReal (rd_arg0 V c)) (hW : IsReal (rd_arg2 V c)) :
    (dat0 V c).arrAt 4 cfg0.N = H1arr V c :=
  (dat0 V c).arrAt_eq_of_cover 4 (H1arr V c) (flushed0_eq V c hA hX hW) cover0

end Cert.KernelIdeal.Val0

end
-- ==== Proof.KI.R1Pieces.lean ====
import proofs.«161297_j25486335935216_2_alg».proof.Proof.KI.R1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: what each case's found pieces are, as the payloads of the body's stores over the blocks handed in -/

/-- The zero offsets of a rank-2 rectangle, however spelt. -/
theorem hz2_r1 : (![0, 0] : Fin 2 → Nat) = fun _ => 0 := funext fun a => by fin_cases a <;> rfl

/-- Case A (first reduction block): the accumulator is left at the zero block plus this block's product. -/
theorem sout1_A_0_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) :
    sout1_A_0 c i arg2 harg2 arg3 harg3 arg4 harg4 arg5 harg5 arg6 harg6 arg7 harg7 arg8 harg8 arg9 harg9 hc0 hc1 x0 x1 x2 x3 x4 x5 = k1_pay3 x1 x2 (k1_pay2 (F := F)) x0 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1024x128) hz2_r1, View.readCov_unit_zero (S := S1024x128) _ hz2_r1]
  simp only [View.readAt_eq_ld, harg2.read_unread, harg3.read_unread, harg4.read_unread, View.ld_unit_zero (S := S1024x2048) hz2_r1, View.ld_unit_zero (S := S2048x128) hz2_r1, View.ld_unit_zero (S := S128x128) hz2_r1]

/-- Case B (a middle reduction block): the accumulator is left at what it held plus this block's product. -/
theorem sout1_B_0_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) :
    sout1_B_0 c i arg2 harg2 arg3 harg3 arg4 harg4 arg5 harg5 arg6 harg6 arg7 harg7 arg8 harg8 arg9 harg9 hc0 hc1 x0 x1 x2 x3 x4 x5 xs0 = k1_pay3 x1 x2 xs0 x0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero (S := S1024x128) hz2_r1]
  simp only [View.readAt_eq_ld, harg2.read_unread, harg3.read_unread, harg4.read_unread, harg9.read_unread, View.ld_unit_zero (S := S1024x2048) hz2_r1, View.ld_unit_zero (S := S2048x128) hz2_r1, View.ld_unit_zero (S := S128x128) hz2_r1, View.ld_unit_zero (S := S1024x128) hz2_r1]

/-- Case C (last reduction block): the accumulator is left at what it held plus this block's product, -/
theorem sout1_C_0_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) :
    sout1_C_0 c i arg2 harg2 arg3 harg3 arg4 harg4 arg5 harg5 arg6 harg6 arg7 harg7 arg8 harg8 arg9 harg9 hc0 hc1 x0 x1 x2 x3 x4 x5 xs0 = k1_pay3 x1 x2 xs0 x0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x128) hz2_r1]
  simp only [View.readAt_eq_ld, harg2.read_unread, harg3.read_unread, harg4.read_unread, harg9.read_unread, View.ld_unit_zero (S := S1024x2048) hz2_r1, View.ld_unit_zero (S := S2048x128) hz2_r1, View.ld_unit_zero (S := S128x128) hz2_r1, View.ld_unit_zero (S := S1024x128) hz2_r1]

/-- and the output's block at the logistic head of that accumulator. -/
theorem out1_C_6_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S128x128 .f32) (x3 : Vec F S1x128 .f32) (x4 : Vec F S128x1 .f32) (x5 : Vec F S1x1 .f32) (xs0 : Vec F S1024x128 .f32) :
    out1_C_6 c i arg2 harg2 arg3 harg3 arg4 harg4 arg5 harg5 arg6 harg6 arg7 harg7 arg8 harg8 arg9 harg9 hc0 hc1 x0 x1 x2 x3 x4 x5 xs0 = k1_pay1 (k1_pay3 x1 x2 xs0 x0) x3 x4 x5 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x1) hz2_r1, View.readCov_unit_zero (S := S1024x128) _ hz2_r1]
  simp only [View.readAt_eq_ld, harg2.read_unread, harg3.read_unread, harg4.read_unread, harg5.read_unread, harg6.read_unread, harg7.read_unread, harg9.read_unread, View.ld_unit_zero (S := S1024x2048) hz2_r1, View.ld_unit_zero (S := S2048x128) hz2_r1, View.ld_unit_zero (S := S128x128) hz2_r1, View.ld_unit_zero (S := S1x128) hz2_r1, View.ld_unit_zero (S := S128x1) hz2_r1, View.ld_unit_zero (S := S1x1) hz2_r1, View.ld_unit_zero (S := S1024x128) hz2_r1]

end Cert.KernelIdeal.Fr

end
-- ==== Proof.R1Value.lean ====
/-
  Region 1, read as values at the ideal instance: the second layer and the head.

  The scratch buffer carries the aggregation of row block `i` over the four reduction steps k = 0 … 3: after step k it
  holds, at (p, q), the sum over the nodes c' of the column blocks 0 … k of A(1024·i + p, c') · (H1·W2)(c', q), each
  step adding its block's 2048 terms to what the step before left, the first one to zero. At step 3 the body adds the
  bias row, clamps below at zero, multiplies the row against the one column of Wf, adds the scalar bias and applies the
  logistic function; that column of 1024 values is the block written back, and the eight row blocks tile the result.
  The three-pass products collapse to plain products because the entries involved are real numbers: those of A, of the
  first layer's activations, of W2, and (for the head) of the aggregation itself, the bias row and Wf.
-/
import proofs.«161297_j25486335935216_2_alg».proof.Proof.KI.R1Pieces
import proofs.«161297_j25486335935216_2_alg».proof.Proof.PayIdeal
import proofs.«161297_j25486335935216_2_alg».proof.Proof.BlockSum
import proofs.«161297_j25486335935216_2_alg».proof.Proof.Spec
import proofs.«161297_j25486335935216_2_alg».proof.Proof.Arrs
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val1

open Cert.KernelIdeal Cert.KernelIdeal.Gen Cert.KernelIdeal.Fr Cert.KernelIdeal.Pay Cert.Spec Cert.KernelIdeal.Arr

variable (V : (c : Dev nD) → (b : Ref sig .tc) → Buf (Elt Ideal) ((c : Thread nD τ).loc b))

/-! ## Where each window's block sits -/

/-- The printed index maps over the grid: point `t` is row block `t / 4`, reduction step `t % 4`. -/
theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 4 ∧ win1_6.index t (1 : Fin 2) = 0 :=
  (by decide +kernel : ∀ t : Fin grid1.N, _)

theorem tlt (t : Fin cfg1.N) : t.val < 32 := lt_of_lt_of_eq t.isLt (show cfg1.N = 32 from N_1)

/-- Row `p` of the row block of point `t`, as a node. -/
def rowOf (t : Fin cfg1.N) (p : Fin 1024) : Fin 8192 := ⟨1024 * (t.val / 4) + p.val, by have := tlt t; have := p.isLt; omega⟩
/-- Node `q` of column block `k`. -/
def colOf (k : ℕ) (hk : k < 4) (q : Fin 2048) : Fin 8192 := ⟨2048 * k + q.val, by have := q.isLt; omega⟩

/-- The block of A at point `t`: rows of row block t / 4, columns of column block t % 4. -/
theorem blkA (c : Dev nD) (t : Fin cfg1.N) (p : Fin 1024) (q : Fin 2048) :
    (iblk1 V c 0 t : Vec Ideal S1024x2048 .f32) (ix2 p q)
      = rd_arg1 V c (ix2 (rowOf t p) (colOf (t.val % 4) (Nat.mod_lt _ (by decide)) q)) := by
  obtain ⟨e0, e1, -⟩ := idx1 t
  unfold iblk1
  rw [View.read_apply]
  show rd_arg1 V c _ = rd_arg1 V c _
  refine congrArg (rd_arg1 V c) ?_
  funext a
  apply Fin.ext
  match a with
  | ⟨0, _⟩ => show win1_0.index t 0 * 1024 + 1 * p.val = 1024 * (t.val / 4) + p.val; rw [e0]; omega
  | ⟨1, _⟩ => show win1_0.index t 1 * 2048 + 1 * q.val = 2048 * (t.val % 4) + q.val; rw [e1]; omega

/-- The block of the first layer's activations at point `t`: the nodes of column block t % 4, all features. -/
theorem blkH (c : Dev nD) (t : Fin cfg1.N) (q : Fin 2048) (f : Fin 128) :
    (iblk1 V c 1 t : Vec Ideal S2048x128 .f32) (ix2 q f)
      = rd_v3 V c (ix2 (colOf (t.val % 4) (Nat.mod_lt _ (by decide)) q) f) := by
  obtain ⟨-, -, e0, e1, -⟩ := idx1 t
  unfold iblk1
  rw [View.read_apply]
  show rd_v3 V c _ = rd_v3 V c _
  refine congrArg (rd_v3 V c) ?_
  funext a
  apply Fin.ext
  match a with
  | ⟨0, _⟩ => show win1_1.index t 0 * 2048 + 1 * q.val = 2048 * (t.val % 4) + q.val; rw [e0]; omega
  | ⟨1, _⟩ => show win1_1.index t 1 * 128 + 1 * f.val = f.val; rw [e1]; omega

/-- The weights' one block is the whole table. -/
theorem blkW (c : Dev nD) (t : Fin cfg1.N) (f : Fin 128) (q : Fin 128) :
    (iblk1 V c 2 t : Vec Ideal S128x128 .f32) (ix2 f q) = rd_arg4 V c (ix2 f q) := by
  obtain ⟨-, -, -, -, e0, e1, -⟩ := idx1 t
  unfold iblk1
  rw [View.read_apply]
  show rd_arg4 V c _ = rd_arg4 V c _
  refine congrArg (rd_arg4 V c) ?_
  funext a
  apply Fin.ext
  match a with
  | ⟨0, _⟩ => show win1_2.index t 0 * 128 + 1 * f.val = f.val; rw [e0]; omega
  | ⟨1, _⟩ => show win1_2.index t 1 * 128 + 1 * q.val = q.val; rw [e1]; omega

/-- The bias row's one block is the whole row. -/
theorem blkB (c : Dev nD) (t : Fin cfg1.N) (u : Fin 1) (q : Fin 128) :
    (iblk1 V c 3 t : Vec Ideal S1x128 .f32) (ix2 u q) = rd_v1 V c (ix2 u q) := by
  obtain ⟨-, -, -, -, -, -, e0, e1, -⟩ := idx1 t
  unfold iblk1
  rw [View.read_apply]
  show rd_v1 V c _ = rd_v1 V c _
  refine congrArg (rd_v1 V c) ?_
  funext a
  apply Fin.ext
  match a with
  | ⟨0, _⟩ => show win1_3.index t 0 * 1 + 1 * u.val = u.val; rw [e0]; omega
  | ⟨1, _⟩ => show win1_3.index t 1 * 128 + 1 * q.val = q.val; rw [e1]; omega

/-- The head's weights: the one block is the whole column. -/
theorem blkF (c : Dev nD) (t : Fin cfg1.N) (j : Fin 128) (u : Fin 1) :
    (iblk1 V c 4 t : Vec Ideal S128x1 .f32) (ix2 j u) = rd_arg6 V c (ix2 j u) := by
  obtain ⟨-, -, -, -, -, -, -, -, e0, e1, -⟩ := idx1 t
  unfold iblk1
  rw [View.read_apply]
  show rd_arg6 V c _ = rd_arg6 V c _
  refine congrArg (rd_arg6 V c) ?_
  funext a
  apply Fin.ext
  match a with
  | ⟨0, _⟩ => show win1_4.index t 0 * 128 + 1 * j.val = j.val; rw [e0]; omega
  | ⟨1, _⟩ => show win1_4.index t 1 * 1 + 1 * u.val = u.val; rw [e1]; omega

/-- The head's scalar bias: the one block is the whole [1, 1] table. -/
theorem blkS (c : Dev nD) (t : Fin cfg1.N) (u u' : Fin 1) :
    (iblk1 V c 5 t : Vec Ideal S1x1 .f32) (ix2 u u') = rd_v2 V c (ix2 u u') := by
  obtain ⟨-, -, -, -, -, -, -, -, -, -, e0, e1, -⟩ := idx1 t
  unfold iblk1
  rw [View.read_apply]
  show rd_v2 V c _ = rd_v2 V c _
  refine congrArg (rd_v2 V c) ?_
  funext a
  apply Fin.ext
  match a with
  | ⟨0, _⟩ => show win1_5.index t 0 * 1 + 1 * u.val = u.val; rw [e0]; omega
  | ⟨1, _⟩ => show win1_5.index t 1 * 1 + 1 * u'.val = u'.val; rw [e1]; omega

/-! ## The blocks as arrays of extended reals, and their entries real when the arrays' are -/

abbrev ib0 (c : Dev nD) (t : Fin cfg1.N) : S1024x2048.Idx → EReal := iblk1 V c 0 t
abbrev ib1 (c : Dev nD) (t : Fin cfg1.N) : S2048x128.Idx → EReal := iblk1 V c 1 t
abbrev ib2 (c : Dev nD) (t : Fin cfg1.N) : S128x128.Idx → EReal := iblk1 V c 2 t
abbrev ib3 (c : Dev nD) (t : Fin cfg1.N) : S1x128.Idx → EReal := iblk1 V c 3 t
abbrev ib4 (c : Dev nD) (t : Fin cfg1.N) : S128x1.Idx → EReal := iblk1 V c 4 t
abbrev ib5 (c : Dev nD) (t : Fin cfg1.N) : S1x1.Idx → EReal := iblk1 V c 5 t

/-- A block of an array of reals is an array of reals. -/
theorem real_blk0 (c : Dev nD) (t : Fin cfg1.N) (h : IsReal (rd_arg1 V c)) : IsReal (ib0 V c t) := fun y => by
  obtain ⟨p, q, rfl⟩ : ∃ (p : Fin 1024) (q : Fin 2048), y = ix2 p q := ⟨y 0, y 1, eq_ix2 y⟩
  exact ⟨_, (blkA V c t p q).trans (h _).choose_spec⟩

theorem real_blk1 (c : Dev nD) (t : Fin cfg1.N) (h : IsReal (rd_v3 V c)) : IsReal (ib1 V c t) := fun y => by
  obtain ⟨p, q, rfl⟩ : ∃ (p : Fin 2048) (q : Fin 128), y = ix2 p q := ⟨y 0, y 1, eq_ix2 y⟩
  exact ⟨_, (blkH V c t p q).trans (h _).choose_spec⟩

theorem real_blk2 (c : Dev nD) (t : Fin cfg1.N) (h : IsReal (rd_arg4 V c)) : IsReal (ib2 V c t) := fun y => by
  obtain ⟨p, q, rfl⟩ : ∃ (p : Fin 128) (q : Fin 128), y = ix2 p q := ⟨y 0, y 1, eq_ix2 y⟩
  exact ⟨_, (blkW V c t p q).trans (h _).choose_spec⟩

theorem real_blk3 (c : Dev nD) (t : Fin cfg1.N) (h : IsReal (rd_v1 V c)) : IsReal (ib3 V c t) := fun y => by
  obtain ⟨p, q, rfl⟩ : ∃ (p : Fin 1) (q : Fin 128), y = ix2 p q := ⟨y 0, y 1, eq_ix2 y⟩
  exact ⟨_, (blkB V c t p q).trans (h _).choose_spec⟩

theorem real_blk4 (c : Dev nD) (t : Fin cfg1.N) (h : IsReal (rd_arg6 V c)) : IsReal (ib4 V c t) := fun y => by
  obtain ⟨p, q, rfl⟩ : ∃ (p : Fin 128) (q : Fin 1), y = ix2 p q := ⟨y 0, y 1, eq_ix2 y⟩
  exact ⟨_, (blkF V c t p q).trans (h _).choose_spec⟩

/-! ## What the scratch buffer holds after each point -/

/-- One reduction step's 2048 terms, through the blocks the point reads. -/
theorem step_sum (c : Dev nD) (t : Fin cfg1.N) (p : Fin 1024) (q : Fin 128) :
    (∑ c' : Fin 2048, ib0 V c t (ix2 p c') * ∑ f : Fin 128, ib1 V c t (ix2 c' f) * ib2 V c t (ix2 f q))
      = ∑ c' : Fin 2048, term1 V c (rowOf t p) q (colOf (t.val % 4) (Nat.mod_lt _ (by decide)) c') := by
  refine Finset.sum_congr rfl fun c' _ => ?_
  unfold term1
  refine congrArg₂ (· * ·) (blkA V c t p c') ?_
  refine Finset.sum_congr rfl fun f _ => ?_
  exact congrArg₂ (· * ·) (blkH V c t c' f) (blkW V c t f q)

section Invariant

variable (c : Dev nD)

/-- A step's payload at (p, q): what the scratch held plus the step's 2048 terms. -/
theorem pay3_at (hA : IsReal (rd_arg1 V c)) (hH : IsReal (rd_v3 V c)) (hW : IsReal (rd_arg4 V c)) (t : Fin cfg1.N) (o : Vec Ideal S1024x128 .f32) (p : Fin 1024) (q : Fin 128) :
    k1_pay3 (F := Ideal) (iblk1 V c 1 t) (iblk1 V c 2 t) o (iblk1 V c 0 t) (ix2 p q)
      = o (ix2 p q) + ∑ c' : Fin 2048, term1 V c (rowOf t p) q (colOf (t.val % 4) (Nat.mod_lt _ (by decide)) c') := by
  refine (k1_pay3_apply (ib1 V c t) (ib2 V c t) o (ib0 V c t)
    (real_blk0 V c t hA) (real_blk1 V c t hH) (real_blk2 V c t hW) p q).trans ?_
  exact congrArg (o (ix2 p q) + ·) (step_sum V c t p q)

/-- The row block does not change within a group of four points. -/
theorem rowOf_pred (t : Fin cfg1.N) (h : ¬t.val % 4 = 0) (p : Fin 1024) :
    rowOf ⟨t.val - 1, Nat.lt_of_le_of_lt (Nat.sub_le _ _) t.isLt⟩ p = rowOf t p := by
  apply Fin.ext
  show 1024 * ((t.val - 1) / 4) + p.val = 1024 * (t.val / 4) + p.val
  have := tlt t
  omega

/-- One more column block: the accumulator after `k` blocks plus block `k`'s 2048 terms is the accumulator after
    `k + 1` blocks. -/
theorem acc_step (g : Fin 8192 → EReal) (k : ℕ) (hk : k < 4) :
    Blk.accUpTo g k + ∑ c' : Fin 2048, g (colOf k hk c') = Blk.accUpTo g (k + 1) := by
  have e : Blk.accUpTo g (k + 1)
      = Blk.accUpTo g k + (if h : k < 4 then ∑ c : Fin 2048, g ⟨2048 * k + c.val, by omega⟩ else 0) := rfl
  rw [e, dif_pos hk]
  rfl

/-- AFTER POINT `n` the scratch buffer holds, at (p, q), the aggregation over the column blocks 0 … n % 4 of the terms
    of row `rowOf n p`. -/
theorem scratch_eq (hA : IsReal (rd_arg1 V c)) (hH : IsReal (rd_v3 V c)) (hW : IsReal (rd_arg4 V c)) : ∀ (n : ℕ) (h : n < cfg1.N) (p : Fin 1024) (q : Fin 128),
    (outsAt1 V c n h).2 (ix2 p q) = Blk.accUpTo (term1 V c (rowOf ⟨n, h⟩ p) q) (n % 4 + 1) := by
  intro n
  induction n with
  | zero =>
    intro h p q
    rw [outsAt1_A V c ⟨0, h⟩ (Nat.zero_mod 4) (by show ¬(0 % 4 = 3); decide)]
    dsimp only
    rw [sout1_A_0_eq]
    refine (pay3_at V c hA hH hW ⟨0, h⟩ _ p q).trans ?_
    rw [k1_pay2_apply]
    exact acc_step _ 0 (by decide)
  | succ n ih =>
    intro h p q
    have hN := tlt ⟨n + 1, h⟩
    have hn : n < cfg1.N := Nat.lt_of_succ_lt h
    have hlt : (n + 1) % 4 < 4 := Nat.mod_lt _ (by decide)
    by_cases h0 : (n + 1) % 4 = 0
    · rw [outsAt1_A V c ⟨n + 1, h⟩ h0 (by dsimp only; omega)]
      dsimp only
      rw [sout1_A_0_eq]
      refine (pay3_at V c hA hH hW ⟨n + 1, h⟩ _ p q).trans ?_
      rw [k1_pay2_apply]
      refine Eq.trans ?_ (acc_step _ _ hlt)
      have hz : Blk.accUpTo (term1 V c (rowOf ⟨n + 1, h⟩ p) q) ((n + 1) % 4) = 0 := by rw [h0]; rfl
      rw [hz]
    · have hprev := ih hn p q
      have hrow : rowOf ⟨n, hn⟩ p = rowOf ⟨n + 1, h⟩ p := by
        apply Fin.ext
        show 1024 * (n / 4) + p.val = 1024 * ((n + 1) / 4) + p.val
        omega
      have hpm : n % 4 + 1 = (n + 1) % 4 := by omega
      by_cases h1 : (n + 1) % 4 = 3
      · rw [outsAt1_C V c ⟨n + 1, h⟩ h0 h1]
        dsimp only
        rw [sout1_C_0_eq]
        refine (pay3_at V c hA hH hW ⟨n + 1, h⟩ _ p q).trans ?_
        show (outsAt1 V c n hn).2 (ix2 p q) + _ = _
        rw [hprev, hrow]
        refine Eq.trans ?_ (acc_step _ _ hlt)
        rw [hpm]
      · rw [outsAt1_B V c ⟨n + 1, h⟩ h0 h1]
        dsimp only
        rw [sout1_B_0_eq]
        refine (pay3_at V c hA hH hW ⟨n + 1, h⟩ _ p q).trans ?_
        show (outsAt1 V c n hn).2 (ix2 p q) + _ = _
        rw [hprev, hrow]
        refine Eq.trans ?_ (acc_step _ _ hlt)
        rw [hpm]

end Invariant

/-! ## The accumulator over real terms is real -/

theorem real_acc (g : Fin 8192 → EReal) (hg : ∀ x, ∃ r : ℝ, g x = (r : EReal)) : ∀ n : ℕ, ∃ r : ℝ, Blk.accUpTo g n = (r : EReal)
  | 0 => real_zero
  | n + 1 => by
    have e : Blk.accUpTo g (n + 1)
        = Blk.accUpTo g n + (if h : n < 4 then ∑ c : Fin 2048, g ⟨2048 * n + c.val, by omega⟩ else 0) := rfl
    rw [e]
    refine real_add (real_acc g hg n) ?_
    split
    · exact real_sum _ fun _ => hg _
    · exact real_zero

/-! ## The head, and the array the region leaves -/

section Final

variable (c : Dev nD)

theorem term1_real (hA : IsReal (rd_arg1 V c)) (hH : IsReal (rd_v3 V c)) (hW : IsReal (rd_arg4 V c)) (r : Fin 8192) (q : Fin 128) (c' : Fin 8192) : ∃ x : ℝ, term1 V c r q c' = (x : EReal) :=
  real_mul (hA _) (real_sum_mul _ _ (fun f => hH _) fun f => hW _)

/-- At a group's last step the output block is the head applied to what the scratch holds after the step. -/
theorem head_eq (t : Fin cfg1.N) (h0 : ¬t.val % 4 = 0) (h1 : t.val % 4 = 3) :
    (outsAt1 V c t.val t.isLt).1
      = k1_pay1 (F := Ideal) (outsAt1 V c t.val t.isLt).2 (iblk1 V c 3 t) (iblk1 V c 4 t) (iblk1 V c 5 t) := by
  rw [outsAt1_C V c t h0 h1]
  dsimp only
  rw [out1_C_6_eq, sout1_C_0_eq]

/-- WHAT A WRITING POINT WRITES BACK (the last step of a group) is its row block of the result. -/
theorem flushed1_eq (hA : IsReal (rd_arg1 V c)) (hH : IsReal (rd_v3 V c)) (hW : IsReal (rd_arg4 V c))
    (hb : IsReal (rd_v1 V c)) (hF : IsReal (rd_arg6 V c)) (t : Fin cfg1.N) (hf : (cfg1.win 6).flush t = true) :
    (dat1 V c).flushed 6 t = ((cfg1.win 6).blk t).view.read (Elt Ideal) (OUTarr V c) := by
  have h3 : t.val % 4 = 3 := (flush1_6 t).mp hf
  have h0 : ¬t.val % 4 = 0 := by omega
  obtain ⟨-, -, -, -, -, -, -, -, -, -, -, -, e0, e1⟩ := idx1 t
  show (cfg1.win 6).cut (grid1.coords t) ((dat1 V c).after 6 t) = _
  rw [after1_6]
  funext y
  obtain ⟨p, u, rfl⟩ : ∃ (p : Fin 1024) (u : Fin 1), y = ix2 p u := ⟨y 0, y 1, eq_ix2 y⟩
  obtain rfl : u = 0 := Subsingleton.elim _ _
  rw [View.read_apply]
  show (outsAt1 V c t.val t.isLt).1 (ix2 p (0 : Fin 1)) = OUTarr V c (((cfg1.win 6).blk t).view.emb (ix2 p (0 : Fin 1)))
  have hemb : ((cfg1.win 6).blk t).view.emb (ix2 p (0 : Fin 1)) = (ix2 (rowOf t p) (0 : Fin 1) : S8192x1.Idx) := by
    funext a
    apply Fin.ext
    match a with
    | ⟨0, _⟩ => show win1_6.index t 0 * 1024 + 1 * p.val = 1024 * (t.val / 4) + p.val; rw [e0]; omega
    | ⟨1, _⟩ => show win1_6.index t 1 * 1 + 1 * 0 = 0; rw [e1]
  rw [hemb, head_eq V c t h0 h3]
  have hsc : ∀ (p' : Fin 1024) (q : Fin 128), (outsAt1 V c t.val t.isLt).2 (ix2 p' q) = ∑ c' : Fin 8192, term1 V c (rowOf t p') q c' := by
    intro p' q
    rw [scratch_eq V c hA hH hW t.val t.isLt p' q, h3, Blk.accUpTo_four]
  have hreal : IsReal (S := S1024x128) (outsAt1 V c t.val t.isLt).2 := fun y => by
    obtain ⟨p', q, rfl⟩ : ∃ (p' : Fin 1024) (q : Fin 128), y = ix2 p' q := ⟨y 0, y 1, eq_ix2 y⟩
    rw [hsc]
    exact real_sum _ fun c' => term1_real V c hA hH hW _ _ _
  refine (k1_pay1_apply _ (ib3 V c t) (ib4 V c t) (ib5 V c t) hreal (real_blk3 V c t hb) (real_blk4 V c t hF) p).trans ?_
  show _ = Ideal.logistic ((∑ j : Fin 128, max ((∑ c' : Fin 8192, term1 V c (rowOf t p) j c') + rd_v1 V c (ix2 (0 : Fin 1) j)) 0
      * rd_arg6 V c (ix2 j (0 : Fin 1))) + rd_v2 V c (ix2 (0 : Fin 1) (0 : Fin 1)))
  have e5 : ib5 V c t (ix2 0 0) = rd_v2 V c (ix2 (0 : Fin 1) (0 : Fin 1)) := blkS V c t 0 0
  rw [e5]
  refine congrArg (fun z => Ideal.logistic (z + rd_v2 V c (ix2 (0 : Fin 1) (0 : Fin 1)))) ?_
  refine Finset.sum_congr rfl fun j _ => ?_
  have e3 : ib3 V c t (ix2 0 j) = rd_v1 V c (ix2 (0 : Fin 1) j) := blkB V c t 0 j
  have e4 : ib4 V c t (ix2 j 0) = rd_arg6 V c (ix2 j (0 : Fin 1)) := blkF V c t j 0
  rw [hsc p j, e3, e4]

/-- An index of the array is in point `t`'s block iff each coordinate is in the block's range on its axis. -/
theorem mem_blk1 (t : Fin cfg1.N) (i : S8192x1.Idx) :
    i ∈ ((cfg1.win 6).blk t).view.set ↔ ∀ a : Fin 2, win1_6.index t a * S1024x1.size a ≤ (i a).val ∧ (i a).val < win1_6.index t a * S1024x1.size a + S1024x1.size a := by
  show i ∈ ((View.whole main_v4).slice (win1_6.rect t)).set ↔ _
  rw [View.set_slice_whole, Rect.mem_set_unit]
  exact Iff.rfl

/-- The eight row blocks, each written back at the last step of its group, tile the array. -/
theorem cover1 (i : S8192x1.Idx) : ∃ t : Fin cfg1.N, (cfg1.win 6).flush t = true ∧ i ∈ ((cfg1.win 6).blk t).view.set := by
  have hi0 : (i 0).val < 8192 := (i 0).isLt
  have hi1 : (i 1).val < 1 := (i 1).isLt
  have hN : cfg1.N = 32 := N_1
  refine ⟨⟨4 * ((i 0).val / 1024) + 3, by omega⟩, (flush1_6 _).mpr (by dsimp only; omega), ?_⟩
  rw [mem_blk1]
  obtain ⟨-, -, -, -, -, -, -, -, -, -, -, -, e0, e1⟩ := idx1 ⟨4 * ((i 0).val / 1024) + 3, by omega⟩
  intro a
  match a with
  | ⟨0, _⟩ => show win1_6.index _ (0 : Fin 2) * 1024 ≤ (i 0).val ∧ (i 0).val < win1_6.index _ (0 : Fin 2) * 1024 + 1024; rw [e0]; dsimp only; omega
  | ⟨1, _⟩ => show win1_6.index _ (1 : Fin 2) * 1 ≤ (i 1).val ∧ (i 1).val < win1_6.index _ (1 : Fin 2) * 1 + 1; rw [e1]; omega

/-- THE ARRAY the region leaves in `main_v4`. -/
theorem final1 (hA : IsReal (rd_arg1 V c)) (hH : IsReal (rd_v3 V c)) (hW : IsReal (rd_arg4 V c))
    (hb : IsReal (rd_v1 V c)) (hF : IsReal (rd_arg6 V c)) : (dat1 V c).arrAt 6 cfg1.N = OUTarr V c :=
  (dat1 V c).arrAt_eq_of_cover 6 (OUTarr V c) (flushed1_eq V c hA hH hW hb hF) cover1

end Final

end Cert.KernelIdeal.Val1

end
-- ==== Proof.Bridge.lean ====
/-
  From the arrays the kernel's two regions leave to the specification.

  The arrays `H1arr` and `OUTarr` are written over the contents a region finds in its buffers: the biases as
  one-row tables, the first layer's activations as the array the first region left. Once the buffers are
  identified with the arguments (the one-row tables with the bias vectors they were reshaped from, the
  activations' buffer with `H1arr`), `OUTarr` is, index by index, the specification `G`: the same sums, the same
  clamp at zero, the same logistic function.
-/
import proofs.«161297_j25486335935216_2_alg».proof.Proof.Arrs
import proofs.«161297_j25486335935216_2_alg».proof.Proof.Spec
import Idealize.ShloMosaic.Lib.ValueIdx
import Idealize.ShloMosaic.Lib.ValueLayout
import Idealize.ShloMosaic.Lib.Pipeline.Value

noncomputable section

namespace Cert.KernelIdeal.Bridge

open Cert.KernelIdeal Cert.KernelIdeal.Arr Cert.Spec Idealize.ShloMosaic Idealize.ShloMosaic.TcCoe Idealize.SL.Sem
  Idealize.ShloMosaic.ValueIdx

variable [Facts₀]
open Facts₀

/-! ## The host reshapes, read at an index -/

/-- A bias vector laid as a one-row table reads, at column `q` of its one row, the vector's entry `q`. -/
theorem reshape_row (x : Vec Ideal S128 .f32) (q : Fin 128) :
    shapeCast S1x128 x shapeCasts_S128_S1x128 (ix2 (0 : Fin 1) q) = x (ix1 q) :=
  shapeCast_a_1a_apply x shapeCasts_S128_S1x128 (0 : Fin 1) q

/-- The scalar bias laid as a one-by-one table reads its one entry. -/
theorem reshape_one (x : Vec Ideal S1 .f32) :
    shapeCast S1x1 x shapeCasts_S1_S1x1 (ix2 (0 : Fin 1) (0 : Fin 1)) = x (ix1 (0 : Fin 1)) :=
  shapeCast_a_1a_apply x shapeCasts_S1_S1x1 (0 : Fin 1) (0 : Fin 1)

/-- A one-row table of a vector of reals holds reals: each of its entries is one of the vector's. -/
theorem reshape_row_real (x : Vec Ideal S128 .f32) (h : IsReal (S := S128) x) :
    IsReal (S := S1x128) (shapeCast S1x128 x shapeCasts_S128_S1x128) := by
  intro i
  obtain ⟨u, q, rfl⟩ : ∃ (u : Fin 1) (q : Fin 128), i = ix2 u q := ⟨i 0, i 1, eq_ix2 i⟩
  have hu : u = 0 := Subsingleton.elim _ _
  subst hu
  rw [reshape_row]
  exact h _

/-! ## Sums, products and clamps of reals are reals -/

/-- A finite sum of reals is a real. -/
theorem real_sum {ι : Type} (s : Finset ι) (f : ι → EReal) (h : ∀ k, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    obtain ⟨r, hr⟩ := ih
    obtain ⟨t, ht⟩ := h a
    exact ⟨t + r, by rw [Finset.sum_insert ha, hr, ht, EReal.coe_add]⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, by rw [EReal.coe_mul]⟩

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, by rw [EReal.coe_add]⟩

/-- A real clamped below at zero is a real. -/
theorem real_max_zero {x : EReal} (hx : ∃ r : ℝ, x = (r : EReal)) : ∃ r : ℝ, max x 0 = (r : EReal) := by
  rcases le_total x 0 with h | h
  · exact ⟨0, by rw [max_eq_right h, EReal.coe_zero]⟩
  · obtain ⟨a, rfl⟩ := hx
    exact ⟨a, by rw [max_eq_left h]⟩

/-- The first layer's activations are reals when the adjacency, the features, the weights and the bias row are. -/
theorem H1arr_real (V : (c : Dev nD) → (b : Ref sig .tc) → Buf (Elt Ideal) ((c : Thread nD τ).loc b)) (c : Dev nD)
    (hA : IsReal (S := S8192x8192) (rd_arg1 V c)) (hX : IsReal (S := S8192x256) (rd_arg0 V c))
    (hW : IsReal (S := S256x128) (rd_arg2 V c)) (hb : IsReal (S := S1x128) (rd_v0 V c)) :
    IsReal (S := S8192x128) (H1arr V c) := by
  intro i
  unfold H1arr
  refine real_max_zero (real_add (real_sum _ _ fun c' => ?_) (hb _))
  unfold term0
  exact real_mul (hA _) (real_sum _ _ fun f => real_mul (hX _) (hW _))

/-! ## The bridge -/

/-- The first region's array is the specification's first layer, once its buffers are the arguments. -/
theorem H1arr_eq (V1 : (c : Dev nD) → (b : Ref sig .tc) → Buf (Elt Ideal) ((c : Thread nD τ).loc b)) (c : Dev nD)
    (X : T8192x256.Idx → EReal) (A : T8192x8192.Idx → EReal) (W1 : T256x128.Idx → EReal) (b1 : T128.Idx → EReal)
    (hA1 : rd_arg1 V1 c = A) (hX : rd_arg0 V1 c = X) (hW1 : rd_arg2 V1 c = W1)
    (hb1 : ∀ q : Fin 128, rd_v0 V1 c (ix2 (0 : Fin 1) q) = b1 (ix1 q)) (c' : Fin 8192) (f : Fin 128) :
    H1arr V1 c (ix2 c' f) = H1 X A W1 b1 c' f := by
  show max ((∑ c'' : Fin 8192, term0 V1 c c' f c'') + rd_v0 V1 c (ix2 (0 : Fin 1) f)) 0 = _
  unfold H1 layer proj term0
  rw [hA1, hX, hW1, hb1]

/-- The second region's array is the specification, once its buffers are the arguments and the first region's array. -/
theorem out_eq_G (V1 V2 : (c : Dev nD) → (b : Ref sig .tc) → Buf (Elt Ideal) ((c : Thread nD τ).loc b)) (c : Dev nD)
    (X : T8192x256.Idx → EReal) (A : T8192x8192.Idx → EReal) (W1 : T256x128.Idx → EReal) (b1 : T128.Idx → EReal)
    (W2 : T128x128.Idx → EReal) (b2 : T128.Idx → EReal) (Wf : T128x1.Idx → EReal) (bf : T1.Idx → EReal)
    (hA1 : rd_arg1 V1 c = A) (hX : rd_arg0 V1 c = X) (hW1 : rd_arg2 V1 c = W1)
    (hb1 : ∀ q : Fin 128, rd_v0 V1 c (ix2 (0 : Fin 1) q) = b1 (ix1 q))
    (hA2 : rd_arg1 V2 c = A) (hH : rd_v3 V2 c = H1arr V1 c) (hW2 : rd_arg4 V2 c = W2)
    (hb2 : ∀ q : Fin 128, rd_v1 V2 c (ix2 (0 : Fin 1) q) = b2 (ix1 q)) (hWf : rd_arg6 V2 c = Wf)
    (hbf : rd_v2 V2 c (ix2 (0 : Fin 1) (0 : Fin 1)) = bf (ix1 (0 : Fin 1))) :
    OUTarr V2 c = Cert.Spec.G X A W1 b1 W2 b2 Wf bf := by
  funext i
  obtain ⟨r, q, rfl⟩ : ∃ (r : Fin 8192) (q : Fin 1), i = ix2 r q := ⟨i 0, i 1, eq_ix2 i⟩
  show Ideal.logistic ((∑ j : Fin 128, max ((∑ c' : Fin 8192, term1 V2 c r j c') + rd_v1 V2 c (ix2 (0 : Fin 1) j)) 0
      * rd_arg6 V2 c (ix2 j (0 : Fin 1))) + rd_v2 V2 c (ix2 (0 : Fin 1) (0 : Fin 1)))
    = Ideal.logistic (logit (H2 X A W1 b1 W2 b2) Wf bf r)
  unfold logit H2 layer proj term1
  rw [hA2, hH, hW2, hWf, hbf]
  simp only [hb2, H1arr_eq V1 c X A W1 b1 hA1 hX hW1 hb1]

end Cert.KernelIdeal.Bridge

end
-- ==== Proof.Finite.lean ====
/-
  Finiteness of the inputs, read out of the precondition.

  The precondition says, of each of the eight argument arrays, that every entry has absolute value below plus infinity
  (the conjunction over all entries, then the conjunction over the eight arrays, comes out 1).  Over the extended reals
  |x| = max x (-x), and max x (-x) < ⊤ rules out both infinities, so every entry is a real number.
-/
import proofs.«161297_j25486335935216_2_alg».proof.Defs
import proofs.«161297_j25486335935216_2_alg».proof.Proof.Gen.Pre_finite_inputs
import proofs.«161297_j25486335935216_2_alg».proof.Proof.Spec
import Idealize.ShloMosaic.Lib.ReduceAll
import Idealize.ShloMosaic.Lib.ValueIdx

noncomputable section

namespace Cert.Fin

open Idealize.ShloMosaic Idealize.ShloMosaic.ValueIdx Cert.Spec

/-- The result of a reduction over all axes has a single index. -/
instance : Subsingleton Cert.Pre_finite_inputs.S_.Idx := ⟨fun a b => funext fun d => d.elim0⟩

/-- The bit pattern the comparison is made against denotes plus infinity. -/
theorem inf_eq_top : Ideal.ofBits .f32 0x7F800000#32 = (⊤ : EReal) := by
  simp [Ideal.ofBits, Ideal.ieee]

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  rw [inf_eq_top] at h
  have h' : max x (-x) < ⊤ := by
    by_contra hn
    simp [Ideal.cmp, hn] at h
  induction x using EReal.rec with
  | bot => simp at h'
  | coe r => exact ⟨r, rfl⟩
  | top => simp at h'

/-- One array: if the conjunction over all entries of `|x| < +∞` is 1, every entry of `x` is real. -/
theorem isReal_of_all {S : Shape} (hb : Cert.Pre_finite_inputs.S_.BroadcastsInDim S (![] : Fin 0 → Fin S.rank))
    {axes : List (Fin S.rank)} (hr : S.ReducesTo axes Cert.Pre_finite_inputs.S_) (hS : 0 < Cert.Pre_finite_inputs.S_.numel)
    (x : FVec Ideal S .f32)
    (h : Host.reduce IntOp.andi (cmpf .olt (Host.absf x)
        (broadcastInDim S ![] hb (constant (F := Ideal) Cert.Pre_finite_inputs.S_ .f32 0x7F800000#32)))
        (constantI Cert.Pre_finite_inputs.S_ 1 1#1) hr hS ix0 = 1#1) : IsReal x := by
  intro i
  have e := Host.reduce_andi_all _ _ hr hS ix0 h i
  exact real_of_abs_lt_inf (x i) e

open Cert.Pre_finite_inputs in
/-- The predicate over eight arrays is the conjunction of the eight per-array statements. -/
theorem real_of_fn [hP : Cert.Pre_finite_inputs.Facts]
    (x0 : FVec Ideal S8192x256 .f32) (x1 : FVec Ideal S8192x8192 .f32) (x2 : FVec Ideal S256x128 .f32)
    (x3 : FVec Ideal S128 .f32) (x4 : FVec Ideal S128x128 .f32) (x5 : FVec Ideal S128 .f32)
    (x6 : FVec Ideal S128x1 .f32) (x7 : FVec Ideal S1 .f32)
    (h : Cert.Pre_finite_inputs.fn (F := Ideal) x0 x1 x2 x3 x4 x5 x6 x7 = fun _ => 1#1) :
    IsReal x0 ∧ IsReal x1 ∧ IsReal x2 ∧ IsReal x3 ∧ IsReal x4 ∧ IsReal x5 ∧ IsReal x6 ∧ IsReal x7 := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨r0, r1⟩, r2⟩, r3⟩, r4⟩, r5⟩, r6⟩, r7⟩ := h0
  exact ⟨isReal_of_all _ _ _ x0 r0, isReal_of_all _ _ _ x1 r1, isReal_of_all _ _ _ x2 r2, isReal_of_all _ _ _ x3 r3,
    isReal_of_all _ _ _ x4 r4, isReal_of_all _ _ _ x5 r5, isReal_of_all _ _ _ x6 r6, isReal_of_all _ _ _ x7 r7⟩

/-- Under the precondition every argument array of the program, on every device, has only real entries. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6))
    ∧ IsReal (m ((c.tc : Thread Cert.KernelIdeal.nD Cert.KernelIdeal.τ).loc Cert.KernelIdeal.main_arg7)) :=
  real_of_fn _ _ _ _ _ _ _ _ (h c)

end Cert.Fin

end
-- ==== Proof.RefValue.lean ====
/-
  The reference program computes the specification.

  The reference is a chain of whole-array operations: two matrix products, a bias broadcast along the rows, an
  addition and a clamp at zero, the same again with the second layer's weights, a product with the head's one
  column, the scalar bias, and the logistic function spelt as 1 / (1 + e^(-x)). Read at an index, each product
  is the finite sum over the contracted coordinate, each broadcast reads its operand at the column (or at the
  one entry), and the pointwise operations act entry by entry; composing these readings from the result back to
  the arguments gives, index by index, the function `Cert.Spec.G`.
-/
import proofs.«161297_j25486335935216_2_alg».proof.Proof.Gen.ReferenceIdeal.Read
import proofs.«161297_j25486335935216_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-! ## The constants -/

/-- The word of `1.0` denotes the real `1`. -/
theorem ofBits_one : Ideal.ofBits .f32 0x3F800000#32 = 1 := by
  simp [Ideal.ofBits, Ideal.ieee, -EReal.coe_mul]; norm_num

/-! ## The first layer -/

/-- The first product, at row `c` and column `j`: the projection of node `c`'s features on column `j` of `W1`. -/
theorem v0_eq (x0 : (⟨S8192x256, .f32⟩ : BufTy).Contents (Elt Ideal)) (x2 : (⟨S256x128, .f32⟩ : BufTy).Contents (Elt Ideal))
    (c : Fin 8192) (j : Fin 128) :
    val_main_v0 (F := Ideal) x0 x2 (ix2 c j) = proj (fun c f => x0 (ix2 c f)) x2 c j := by
  rw [val_main_v0_apply]
  unfold proj
  refine Finset.sum_congr rfl fun k _ => ?_
  have e1 : lidx_main_v0 (ix2 c j) k = ix2 c k := funext fun a => by match a with | ⟨0, _⟩ => rfl | ⟨1, _⟩ => rfl
  have e2 : ridx_main_v0 (ix2 c j) k = ix2 k j := funext fun a => by match a with | ⟨0, _⟩ => rfl | ⟨1, _⟩ => rfl
  rw [e1, e2]

/-- The bias of the first layer, broadcast along the rows, at row `r` and column `j`. -/
theorem v3_eq (x3 : (⟨S128, .f32⟩ : BufTy).Contents (Elt Ideal)) (r : Fin 8192) (j : Fin 128) :
    val_main_v3 (F := Ideal) x3 (ix2 r j) = x3 (ix1 j) := by
  rw [val_main_v3_apply, val_main_v2_apply]
  have e : idx_main_v2 (idx_main_v3 (ix2 r j)) = ix1 j := funext fun a => by match a with | ⟨0, _⟩ => rfl
  rw [e]

/-- The first layer's activations. -/
theorem v5_eq (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (r : Fin 8192) (j : Fin 128) :
    val_main_v5 (F := Ideal) x0 x1 x2 x3 (ix2 r j) = H1 x0 x1 x2 x3 r j := by
  rw [val_main_v5_apply, val_main_v4_apply, val_main_call0_v0_apply, val_main_call0_cst_apply, val_main_v1_apply, v3_eq]
  unfold H1 layer
  rw [Ideal.maximumf_def, Ideal.addf_def, Ideal.ofBits_def, Ideal.ofBits_zero_f32]
  congr 2
  refine Finset.sum_congr rfl fun k _ => ?_
  have e1 : lidx_main_v1 (ix2 r j) k = ix2 r k := funext fun a => by match a with | ⟨0, _⟩ => rfl | ⟨1, _⟩ => rfl
  have e2 : ridx_main_v1 (ix2 r j) k = ix2 k j := funext fun a => by match a with | ⟨0, _⟩ => rfl | ⟨1, _⟩ => rfl
  rw [e1, e2, v0_eq]

/-! ## The second layer -/

/-- The second layer's projection, at row `c` and column `j`: node `c`'s first-layer activations on column `j` of `W2`. -/
theorem v6_eq (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (c : Fin 8192) (j : Fin 128) :
    val_main_v6 (F := Ideal) x0 x1 x2 x3 x4 (ix2 c j) = proj (H1 x0 x1 x2 x3) x4 c j := by
  rw [val_main_v6_apply]
  unfold proj
  refine Finset.sum_congr rfl fun k _ => ?_
  have e1 : lidx_main_v6 (ix2 c j) k = ix2 c k := funext fun a => by match a with | ⟨0, _⟩ => rfl | ⟨1, _⟩ => rfl
  have e2 : ridx_main_v6 (ix2 c j) k = ix2 k j := funext fun a => by match a with | ⟨0, _⟩ => rfl | ⟨1, _⟩ => rfl
  rw [e1, e2, v5_eq]

/-- The bias of the second layer, broadcast along the rows, at row `r` and column `j`. -/
theorem v9_eq (x5 : (⟨S128, .f32⟩ : BufTy).Contents (Elt Ideal)) (r : Fin 8192) (j : Fin 128) :
    val_main_v9 (F := Ideal) x5 (ix2 r j) = x5 (ix1 j) := by
  rw [val_main_v9_apply, val_main_v8_apply]
  have e : idx_main_v8 (idx_main_v9 (ix2 r j)) = ix1 j := funext fun a => by match a with | ⟨0, _⟩ => rfl
  rw [e]

/-- The second layer's activations. -/
theorem v11_eq (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 8192) (j : Fin 128) :
    val_main_v11 (F := Ideal) x0 x1 x2 x3 x4 x5 (ix2 r j) = H2 x0 x1 x2 x3 x4 x5 r j := by
  rw [val_main_v11_apply, val_main_v10_apply, val_main_call1_v0_apply, val_main_call1_cst_apply, val_main_v7_apply, v9_eq]
  unfold H2 layer
  rw [Ideal.maximumf_def, Ideal.addf_def, Ideal.ofBits_def, Ideal.ofBits_zero_f32]
  congr 2
  refine Finset.sum_congr rfl fun k _ => ?_
  have e1 : lidx_main_v7 (ix2 r j) k = ix2 r k := funext fun a => by match a with | ⟨0, _⟩ => rfl | ⟨1, _⟩ => rfl
  have e2 : ridx_main_v7 (ix2 r j) k = ix2 k j := funext fun a => by match a with | ⟨0, _⟩ => rfl | ⟨1, _⟩ => rfl
  rw [e1, e2, v6_eq]

/-! ## The head -/

/-- The scalar bias of the head, broadcast to the column, at row `r`. -/
theorem v14_eq (x7 : (⟨S1, .f32⟩ : BufTy).Contents (Elt Ideal)) (r : Fin 8192) (q : Fin 1) :
    val_main_v14 (F := Ideal) x7 (ix2 r q) = x7 (ix1 0) := by
  rw [val_main_v14_apply, val_main_v13_apply]
  have e : idx_main_v13 (idx_main_v14 (ix2 r q)) = ix1 0 := funext fun a => by match a with | ⟨0, _⟩ => rfl
  rw [e]

/-- The head's pre-activation of node `r`. -/
theorem v15_eq (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal))
    (r : Fin 8192) (q : Fin 1) :
    val_main_v15 (F := Ideal) x0 x1 x2 x3 x4 x5 x6 x7 (ix2 r q) = logit (H2 x0 x1 x2 x3 x4 x5) x6 x7 r := by
  rw [val_main_v15_apply, val_main_v12_apply, v14_eq]
  unfold logit
  rw [Ideal.addf_def]
  congr 1
  refine Finset.sum_congr rfl fun k _ => ?_
  have hq : q = 0 := Subsingleton.elim _ _
  subst hq
  have e1 : lidx_main_v12 (ix2 r (0 : Fin 1)) k = ix2 r k := funext fun a => by match a with | ⟨0, _⟩ => rfl | ⟨1, _⟩ => rfl
  have e2 : ridx_main_v12 (ix2 r (0 : Fin 1)) k = ix2 k 0 := funext fun a => by match a with | ⟨0, _⟩ => rfl | ⟨1, _⟩ => rfl
  rw [e1, e2, v11_eq]

/-! ## The result -/

/-- The reference's result array is the specification's, index by index: the spelt-out quotient
    `1 / (1 + e^(-x))` of the head's pre-activation is the logistic function by definition. -/
theorem ref_eq (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    Cert.ReferenceIdeal.Read.val_main_v21 (F := Ideal) x0 x1 x2 x3 x4 x5 x6 x7 = Cert.Spec.G x0 x1 x2 x3 x4 x5 x6 x7 := by
  funext i
  obtain ⟨r, q, rfl⟩ : ∃ (r : Fin 8192) (q : Fin 1), i = ix2 r q := ⟨i 0, i 1, eq_ix2 i⟩
  rw [val_main_v21_apply, val_main_v20_apply, val_main_cst_0_apply, val_main_v19_apply, val_main_v18_apply, val_main_cst_apply,
    val_main_v17_apply, val_main_v16_apply, v15_eq]
  unfold G
  rw [Ideal.hostDivf_def, Ideal.addf_def, Ideal.hostUnary_exp_def, Ideal.hostNegf_def, Ideal.negf_def, Ideal.ofBits_def, ofBits_one]
  rfl

/-! ## The reference's run -/

/-- On every device, from any memory with zero counters: every weakly fair execution of the reference terminates
    with its result array at the specification of the arguments' launch contents, the arguments unchanged. -/
theorem ref_run (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal))) ⟨m, fun _ => 0, ρ⟩ fun r => ∀ c : Dev nD,
      r.2.mem ((c.tc : Thread nD τ).loc main_v21) = Cert.Spec.G (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run Cert.ReferenceIdeal.defs _ _).mono
    (fun _ h c => ⟨(h c).1.trans ((val_main_v21_eq _ _ _ _ _ _ _ _).trans (ref_eq _ _ _ _ _ _ _ _)), (h c).2⟩)
    (Cert.ReferenceIdeal.Value.run (F := Ideal) m ρ)

end Cert.ReferenceIdeal.RefValue

end
-- ==== Proof.lean ====
/-
  Two graph-convolution layers and a logistic head, H1 = max (A·(X·W1) + b1) 0, H2 = max (A·(H1·W2) + b2) 0,
  out = logistic (H2·Wf + bf), computed by two tiled kernels against the plain formulas.

  Frames. Each program runs to the end, faults nowhere and leaves its arguments as launched: the kernel program as
  three segments — the reshapes of the biases, the first layer's kernel over its 8 × 4 grid, the second layer's kernel
  with the head over the same grid —, each kernel region from its body's behaviour at every grid point (the output
  block of layer 1 and the scratch accumulator of layer 2 are carried from one reduction step to the next); the
  reference as a straight line of host operations.

  Preservation. The ideal program differs from the word-level one by ten round trips through the 16-bit format that
  were replaced by the identity; each is the rule's statement at its shape.

  Values. At the ideal instance a change of format is the identity, so each three-pass product hi·hi + hi·lo + lo·hi
  has lo = x - x, which is 0 for a real x: the three passes are the plain product when the entries are real — which the
  precondition gives for the arguments and which sums, products and clamps of reals keep for every intermediate array.
  A row block's aggregation is accumulated over four column blocks of 2048 nodes starting from zero; the four partial
  sums in order are the sum over the 8192 nodes (addition on the extended reals is associative and commutative). So
  the kernel program's result array is the specification `Cert.Spec.G` of the arguments; the reference's operations,
  read one at a time at an index, are the same function.
-/
import proofs.«161297_j25486335935216_2_alg».proof.Defs
import proofs.«161297_j25486335935216_2_alg».proof.Proof.Gen.Kernel
import proofs.«161297_j25486335935216_2_alg».proof.Proof.Gen.KernelIdeal
import proofs.«161297_j25486335935216_2_alg».proof.Proof.Gen.ReferenceIdeal
import proofs.«161297_j25486335935216_2_alg».proof.Proof.Gen.Pre_finite_inputs
import proofs.«161297_j25486335935216_2_alg».proof.Proof.K.Run
import proofs.«161297_j25486335935216_2_alg».proof.Proof.KI.Run
import proofs.«161297_j25486335935216_2_alg».proof.Proof.R0Value
import proofs.«161297_j25486335935216_2_alg».proof.Proof.R1Value
import proofs.«161297_j25486335935216_2_alg».proof.Proof.Bridge
import proofs.«161297_j25486335935216_2_alg».proof.Proof.Finite
import proofs.«161297_j25486335935216_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel program's result array is the specification of the arguments -/

section Value

open Cert.KernelIdeal Cert.KernelIdeal.Gen Cert.KernelIdeal.Fr Cert.KernelIdeal.Arr Cert.Spec

/-- Under the precondition every argument array holds real numbers, so region 0 leaves the first layer's activations
    in `main_v3` (real numbers again), region 1 leaves the result over them in `main_v4`, and that array is the
    specification of the launched arguments: the biases reach the kernels as one-row reshapes of the launched vectors,
    every other operand as launched. -/
theorem kernel_value [hKernelIdeal : Cert.KernelIdeal.Facts] [hPre_finite_inputs : Cert.Pre_finite_inputs.Facts]
    (m : (ℓ : Loc nD τ sig) → Buf (Elt Ideal) ℓ) (ρ : Dev nD → PrngReg) (hpre : Cert.Pre_KernelIdeal m) (c : Dev nD) :
    (dat1 (V2 m ρ) c).arrAt 6 cfg1.N
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  obtain ⟨hX, hA, hW1, hb1, hW2, hb2, hWf, hbf⟩ := Cert.Fin.real_of_pre m hpre c
  -- what region 0 finds
  have eA1 : rd_arg1 (V1 m ρ) c = m ((c.tc : Thread nD τ).loc main_arg1) := V1_main_arg1 m ρ c
  have eX : rd_arg0 (V1 m ρ) c = m ((c.tc : Thread nD τ).loc main_arg0) := V1_main_arg0 m ρ c
  have eW1 : rd_arg2 (V1 m ρ) c = m ((c.tc : Thread nD τ).loc main_arg2) := V1_main_arg2 m ρ c
  have ev0 : rd_v0 (V1 m ρ) c = shapeCast S1x128 (m ((c.tc : Thread nD τ).loc main_arg3) : S128.Idx → EReal) Facts₀.shapeCasts_S128_S1x128 :=
    V1_main_v0 m ρ c
  have eb1 : ∀ q : Fin 128, rd_v0 (V1 m ρ) c (ix2 (0 : Fin 1) q) = (m ((c.tc : Thread nD τ).loc main_arg3) : S128.Idx → EReal) (ix1 q) :=
    fun q => by rw [ev0]; exact Cert.KernelIdeal.Bridge.reshape_row _ q
  have rA1 : IsReal (rd_arg1 (V1 m ρ) c) := by rw [eA1]; exact hA
  have rX : IsReal (rd_arg0 (V1 m ρ) c) := by rw [eX]; exact hX
  have rW1 : IsReal (rd_arg2 (V1 m ρ) c) := by rw [eW1]; exact hW1
  have rb1 : IsReal (rd_v0 (V1 m ρ) c) := by rw [ev0]; exact Cert.KernelIdeal.Bridge.reshape_row_real _ hb1
  -- what region 0 leaves, and region 1 finds
  have f0 : (dat0 (V1 m ρ) c).arrAt 4 cfg0.N = H1arr (V1 m ρ) c := Cert.KernelIdeal.Val0.final0 (V1 m ρ) c rA1 rX rW1
  have eH : rd_v3 (V2 m ρ) c = H1arr (V1 m ρ) c := (V2_main_v3 m ρ c).trans f0
  have eA2 : rd_arg1 (V2 m ρ) c = m ((c.tc : Thread nD τ).loc main_arg1) := V2_main_arg1 m ρ c
  have eW2 : rd_arg4 (V2 m ρ) c = m ((c.tc : Thread nD τ).loc main_arg4) := V2_main_arg4 m ρ c
  have eWf : rd_arg6 (V2 m ρ) c = m ((c.tc : Thread nD τ).loc main_arg6) := V2_main_arg6 m ρ c
  have ev1 : rd_v1 (V2 m ρ) c = shapeCast S1x128 (m ((c.tc : Thread nD τ).loc main_arg5) : S128.Idx → EReal) Facts₀.shapeCasts_S128_S1x128 :=
    (V2_main_v1 m ρ c).trans (V1_main_v1 m ρ c)
  have ev2 : rd_v2 (V2 m ρ) c = shapeCast S1x1 (m ((c.tc : Thread nD τ).loc main_arg7) : S1.Idx → EReal) Facts₀.shapeCasts_S1_S1x1 :=
    (V2_main_v2 m ρ c).trans (V1_main_v2 m ρ c)
  have eb2 : ∀ q : Fin 128, rd_v1 (V2 m ρ) c (ix2 (0 : Fin 1) q) = (m ((c.tc : Thread nD τ).loc main_arg5) : S128.Idx → EReal) (ix1 q) :=
    fun q => by rw [ev1]; exact Cert.KernelIdeal.Bridge.reshape_row _ q
  have ebf : rd_v2 (V2 m ρ) c (ix2 (0 : Fin 1) (0 : Fin 1)) = (m ((c.tc : Thread nD τ).loc main_arg7) : S1.Idx → EReal) (ix1 (0 : Fin 1)) := by
    rw [ev2]; exact Cert.KernelIdeal.Bridge.reshape_one _
  have rA2 : IsReal (rd_arg1 (V2 m ρ) c) := by rw [eA2]; exact hA
  have rH : IsReal (rd_v3 (V2 m ρ) c) := by rw [eH]; exact Cert.KernelIdeal.Bridge.H1arr_real (V1 m ρ) c rA1 rX rW1 rb1
  have rW2 : IsReal (rd_arg4 (V2 m ρ) c) := by rw [eW2]; exact hW2
  have rb2 : IsReal (rd_v1 (V2 m ρ) c) := by rw [ev1]; exact Cert.KernelIdeal.Bridge.reshape_row_real _ hb2
  have rWf : IsReal (rd_arg6 (V2 m ρ) c) := by rw [eWf]; exact hWf
  -- what region 1 leaves
  have f1 : (dat1 (V2 m ρ) c).arrAt 6 cfg1.N = OUTarr (V2 m ρ) c := Cert.KernelIdeal.Val1.final1 (V2 m ρ) c rA2 rH rW2 rb2 rWf
  exact f1.trans (Cert.KernelIdeal.Bridge.out_eq_G (V1 m ρ) (V2 m ρ) c _ _ _ _ _ _ _ _ eA1 eX eW1 eb1 eA2 eH eW2 eb2 eWf ebf)

end Value

/-! ## The claims -/

theorem frame_k [Cert.Kernel.Facts] [Cert.Pre_finite_inputs.Facts] : Cert.frame_Kernel :=
  fun m ρ _ => Cert.Kernel.Fr.frame (F := Bits) m ρ

theorem frame_ki [Cert.KernelIdeal.Facts] [Cert.Pre_finite_inputs.Facts] : Cert.frame_KernelIdeal :=
  fun m ρ _ => Cert.KernelIdeal.Fr.frame (F := Ideal) m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.RefValue.ref_run m ρ)

/-- The ledger's ten entries: each round trip through the 16-bit format, at its shape, is the identity at the ideal
    instance and the rounding at the word level. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- At the ideal instance the kernel program's result array ends at the specification of its arguments
    (`kernel_value`) and the reference's at the specification of arguments that agree with them. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (kernel_value m ρ hpre c), (h c).2⟩)
      (Cert.KernelIdeal.Fr.run_named (F := Ideal) m ρ)
  · refine (θ_run Cert.ReferenceIdeal.defs _ _).mono (fun _ h c => ⟨(h c).1.trans ?_, (h c).2⟩)
      (Cert.ReferenceIdeal.RefValue.ref_run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  @frame_k Cert.Kernel.Gen.facts Cert.Pre_finite_inputs.Gen.facts,
  @frame_ki Cert.KernelIdeal.Gen.facts Cert.Pre_finite_inputs.Gen.facts,
  @frame_ri Cert.ReferenceIdeal.Gen.facts Cert.Pre_finite_inputs.Gen.facts,
  preserves,
  @algebraic Cert.KernelIdeal.Gen.facts Cert.ReferenceIdeal.Gen.facts Cert.Pre_finite_inputs.Gen.facts⟩

end Cert.Proof

end
